-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x1x8192 : Shape := ⟨3, ![4, 1, 8192]⟩
abbrev S1x2048x3 : Shape := ⟨3, ![1, 2048, 3]⟩
abbrev S1x3x1024 : Shape := ⟨3, ![1, 3, 1024]⟩
abbrev S1x1x2048 : Shape := ⟨3, ![1, 1, 2048]⟩
abbrev S1x1x8192 : Shape := ⟨3, ![1, 1, 8192]⟩
abbrev S2048 : Shape := ⟨1, ![2048]⟩
abbrev S8192 : Shape := ⟨1, ![8192]⟩
abbrev S2048x3 : Shape := ⟨2, ![2048, 3]⟩
abbrev S3x1024 : Shape := ⟨2, ![3, 1024]⟩
abbrev S2048x1 : Shape := ⟨2, ![2048, 1]⟩
abbrev S1024 : Shape := ⟨1, ![1024]⟩
abbrev S1x1024 : Shape := ⟨2, ![1, 1024]⟩
abbrev S2048x1024 : Shape := ⟨2, ![2048, 1024]⟩
abbrev S4x8192 : Shape := ⟨2, ![4, 8192]⟩
abbrev S_ : Shape := ⟨0, ![]⟩
abbrev S4 : Shape := ⟨1, ![4]⟩

abbrev nBuf : Space → Nat
  | .hbm => 20
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x1x8192, .f32⟩
  | .hbm, ⟨4, _⟩ => ⟨S4x1x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S4x8192, .f32⟩
  | .hbm, ⟨9, _⟩ => ⟨S4x8192, .f32⟩
  | .hbm, ⟨10, _⟩ => ⟨S4x8192, .f32⟩
  | .hbm, ⟨11, _⟩ => ⟨S_, .f32⟩
  | .hbm, ⟨12, _⟩ => ⟨S4x8192, .f32⟩
  | .hbm, ⟨13, _⟩ => ⟨S4x8192, .f32⟩
  | .hbm, ⟨14, _⟩ => ⟨S4x8192, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x1x8192, .f32⟩
  | .local _ .vmem, ⟨7, _⟩ => ⟨S1x1x8192, .f32⟩
  | .local _ .vmem, ⟨8, _⟩ => ⟨S2048, .f32⟩
  | .local _ .vmem, ⟨9, _⟩ => ⟨S8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1024_i32 : BitVec 32 := 1024#32
  let v48 : BitVec 32 := Scalar.muli arg2 c1024_i32
  v48
def k0_off1 (i : grid0.Coords) : Fin 1 → Nat :=
  let arg2 : BitVec 32 := BitVec.ofNat 32 (i 2).val
  let c1024_i32 : BitVec 32 := 1024#32
  let v48 : BitVec 32 := Scalar.muli arg2 c1024_i32
  let v49 : BitVec 32 := v48
  let v50 : Index := Scalar.indexCast v49
  ![v50.toNat]
def k0_cond3 (i : grid0.Coords) : BitVec 1 :=
  let arg2 : BitVec 32 := BitVec.ofNat 32 (i 2).val
  let c7_i32 : BitVec 32 := 7#32
  let v57 : BitVec 1 := Scalar.cmpi .eq arg2 c7_i32
  let v58 : BitVec 32 := Scalar.extui v57
  let c0_i32_15 : BitVec 32 := 0#32
  let v59 : BitVec 1 := Scalar.cmpi .ne v58 c0_i32_15
  v59

def k0_cond4 (i : grid0.Coords) : BitVec 1 :=
  let arg1 : BitVec 32 := BitVec.ofNat 32 (i 1).val
  let c3_i32 : BitVec 32 := 3#32
  let v60 : BitVec 1 := Scalar.cmpi .eq arg1 c3_i32
  let arg2 : BitVec 32 := BitVec.ofNat 32 (i 2).val
  let c7_i32_16 : BitVec 32 := 7#32
  let v61 : BitVec 1 := Scalar.cmpi .eq arg2 c7_i32_16
  let v62 : BitVec 1 := Scalar.andi v60 v61
  let v63 : BitVec 32 := Scalar.extui v62
  let c0_i32_17 : BitVec 32 := 0#32
  let v64 : BitVec 1 := Scalar.cmpi .ne v63 c0_i32_17
  v64

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  inb_S2048_S2048_0 : ∀ a, (![0] : Fin 1 → Nat) a + S2048.size a ≤ S2048.size a
  h_S2048 : 0 < S2048.numel
  shapeCasts_S2048_S2048 : S2048.ShapeCasts S2048
  inb_S8192_S8192_0 : ∀ a, (![0] : Fin 1 → Nat) a + S8192.size a ≤ S8192.size a
  h_S8192 : 0 < S8192.numel
  shapeCasts_S8192_S8192 : S8192.ShapeCasts S8192
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S2048x3_S2048 : S2048x3.Reduces [1] S2048
  shapeCasts_S2048_S2048x1 : S2048.ShapeCasts S2048x1
  reduces_S3x1024_S1024 : S3x1024.Reduces [0] S1024
  shapeCasts_S1024_S1x1024 : S1024.ShapeCasts S1x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  reduces_S2048x1024_S1024 : S2048x1024.Reduces [0] S1024
  h_S1024 : 0 < S1024.numel
  shapeCasts_S1024_S1024 : S1024.ShapeCasts S1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x1x2048 : S2048.ShapeCasts S1x1x2048
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  shapeCasts_S8192_S1x1x8192 : S8192.ShapeCasts S1x1x8192
  shapeCasts_S4x1x8192_S4x8192 : S4x1x8192.ShapeCasts S4x8192
  bcast_S_S4x8192 : S_.BroadcastsInDim S4x8192 (![] : Fin 0 → Fin S4x8192.rank)
  reducesTo_S4x8192_S4_d1 : S4x8192.ReducesTo [1] S4
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1024.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S4x8192x3.size a
  hwx0_0 : ∀ i : grid0.Coords, EltTy.bits .f32 = 32 ∨ (Rect.block (s := S4x8192x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x8192.size a
  hwx0_1 : ∀ i : grid0.Coords, EltTy.bits .f32 = 32 ∨ (Rect.block (s := S4x3x8192) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x8192.size a
  hwx0_2 : ∀ i : grid0.Coords, EltTy.bits .f32 = 32 ∨ (Rect.block (s := S4x1x8192) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4, .f32⟩
  | .hbm, ⟨30, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  reducesTo_S4x8192_S4_d1 : S4x8192.ReducesTo [1] S4
  reducesTo_S4x8192x8192_S4x8192_d2 : S4x8192x8192.ReducesTo [2] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The specification shared by both programs. For each batch there are two sets of 8192 points of ℝ³ (rows of the two
  argument arrays). Both programs compute, per batch, the sum over the points of the second set of the distance to the
  nearest point of the first, plus the sum over the points of the first set of the distance to the nearest point of the
  second. The squared distance |x|² + |y|² − 2⟨x, y⟩ appears in two arrangements: with the cross term as one inner
  product multiplied by 2 and subtracted (`d2`), and with the factor −2 folded into the first point's coordinates and
  the three products added one after the other (`d2K`). The distance is the square root of the squared distance clamped
  at zero (`clampRoot`); one program takes the root of every pair and then the minimum (`Gref`), the other the minimum
  of the squared distances and one root of it (`GK`). A minimum over a finite set is the fold of `min` from +∞
  (`minOver`), characterised by its lower bounds (`le_minOver`).
-/
import Idealize.ShloMosaic.PureOps.Ideal
import Idealize.ShloMosaic.Lib.ValueIdx

noncomputable section

open scoped BigOperators

namespace Cert.Chamfer

open Idealize.ShloMosaic Idealize.ShloMosaic.ValueIdx

/-- The shape of an argument array: 4 batches of 8192 points with 3 coordinates. -/
abbrev SPts : Shape := ⟨3, ![4, 8192, 3]⟩
/-- The shape of the result: one number per batch. -/
abbrev SOut : Shape := ⟨1, ![4]⟩

/-- The minimum of `f` over a finite set: the fold of `min` from +∞. -/
def minOver {ι : Type} (s : Finset ι) (f : ι → EReal) : EReal := s.fold min ⊤ f

/-- A number is below the minimum exactly when it is below every value. -/
theorem le_minOver {ι : Type} (s : Finset ι) (f : ι → EReal) (c : EReal) :
    c ≤ minOver s f ↔ ∀ x ∈ s, c ≤ f x := by
  unfold minOver
  rw [Finset.le_fold_min]
  exact ⟨fun h => h.2, fun h => ⟨le_top, h⟩⟩

/-- Two numbers with the same lower bounds are equal. -/
theorem eq_minOver_iff {ι : Type} (s : Finset ι) (f : ι → EReal) (a : EReal) :
    a = minOver s f ↔ ∀ c : EReal, c ≤ a ↔ ∀ x ∈ s, c ≤ f x := by
  constructor
  · rintro rfl c; exact le_minOver s f c
  · intro h
    apply le_antisymm
    · exact (le_minOver s f a).2 ((h a).1 le_rfl)
    · exact (h _).2 ((le_minOver s f _).1 le_rfl)

/-- The squared norm of point `n` of batch `b`. -/
def sq (X : SPts.Idx → EReal) (b : Fin 4) (n : Fin 8192) : EReal :=
  ∑ d : Fin 3, X (ix3 b n d) * X (ix3 b n d)

/-- The inner product of point `n` of `X` and point `m` of `Y`, batch `b`. -/
def dot (X Y : SPts.Idx → EReal) (b : Fin 4) (n m : Fin 8192) : EReal :=
  ∑ d : Fin 3, X (ix3 b n d) * Y (ix3 b m d)

/-- The squared distance, the cross term one inner product doubled and subtracted. -/
def d2 (X Y : SPts.Idx → EReal) (b : Fin 4) (n m : Fin 8192) : EReal :=
  (sq X b n + sq Y b m) - ((2 : ℝ) : EReal) * dot X Y b n m

/-- The squared distance, the factor −2 folded into the first point's coordinates, the three products added in order. -/
def d2K (X Y : SPts.Idx → EReal) (b : Fin 4) (n m : Fin 8192) : EReal :=
  (sq X b n + sq Y b m)
    + (((((-2 : ℝ) : EReal) * X (ix3 b n 0)) * Y (ix3 b m 0) + (((-2 : ℝ) : EReal) * X (ix3 b n 1)) * Y (ix3 b m 1))
        + (((-2 : ℝ) : EReal) * X (ix3 b n 2)) * Y (ix3 b m 2))

/-- The square root of a number clamped below at zero. -/
def clampRoot (x : EReal) : EReal := Ideal.sqrt (max x 0)

/-- Per batch: root of every pair first, then the minima, then the two sums (each from 0). -/
def GrefB (X Y : SPts.Idx → EReal) (b : Fin 4) : EReal :=
  (0 + ∑ m : Fin 8192, minOver Finset.univ (fun n : Fin 8192 => clampRoot (d2 X Y b n m)))
    + (0 + ∑ n : Fin 8192, minOver Finset.univ (fun m : Fin 8192 => clampRoot (d2 X Y b n m)))

/-- Per batch: the minima of the squared distances first, one root of each, then the two sums (each from 0). -/
def GKB (X Y : SPts.Idx → EReal) (b : Fin 4) : EReal :=
  (0 + ∑ m : Fin 8192, clampRoot (minOver Finset.univ (fun n : Fin 8192 => d2K X Y b n m)))
    + (0 + ∑ n : Fin 8192, clampRoot (minOver Finset.univ (fun m : Fin 8192 => d2K X Y b n m)))

/-- The result array in the first arrangement. -/
def Gref (X Y : SPts.Idx → EReal) : SOut.Idx → EReal := fun i => GrefB X Y ⟨(i 0).val, (i 0).isLt⟩

/-- The result array in the second arrangement. -/
def GK (X Y : SPts.Idx → EReal) : SOut.Idx → EReal := fun i => GKB X Y ⟨(i 0).val, (i 0).isLt⟩

/-- The pattern of the f32 number 2. -/
theorem two_f32 : Ideal.ofBits .f32 0x40000000#32 = ((2 : ℝ) : EReal) := by
  simp [Ideal.ofBits, Ideal.ieee, -EReal.coe_mul]; norm_num

/-- The pattern of the f32 number −2. -/
theorem neg_two_f32 : Ideal.ofBits .f32 0xC0000000#32 = ((-2 : ℝ) : EReal) := by
  simp [Ideal.ofBits, Ideal.ieee, -EReal.coe_mul]; norm_num

/-- The pattern of the f32 +∞. -/
theorem top_f32 : Ideal.ofBits .f32 0x7F800000#32 = ⊤ := by
  simp [Ideal.ofBits, Ideal.ieee]

end Cert.Chamfer

end
-- ==== Proof.RefValue.lean ====
import proofs.«131806_j70927089926224_2_alg».proof.Proof.Gen.ReferenceIdeal.Read
import proofs.«131806_j70927089926224_2_alg».proof.Proof.Spec
import Idealize.ShloMosaic.PureOps.Ideal.Laws
import Idealize.ShloMosaic.PureOps.Reduce
import Idealize.ShloMosaic.Lib.ValueIdx

noncomputable section

namespace Cert.Chamfer.Ref

open Cert.ReferenceIdeal Cert.ReferenceIdeal.Gen Cert.ReferenceIdeal.Read Cert.Chamfer Idealize.ShloMosaic Idealize.ShloMosaic.ValueIdx

/-! ## The index maps of the layout operations, at explicit coordinates -/

/-- The row of the first argument that the squared norm of point `n` reads at pair (b, n, m). -/
theorem idx_sqX (b : Fin 4) (n m : Fin 8192) (d : Fin 3) :
    idx_main_v1 (idx_main_v5 (idx_main_v7 (ix3 b n m))) d = ix3 b n d :=
  funext fun a => Fin.ext (by match a with | ⟨0, _⟩ => rfl | ⟨1, _⟩ => rfl | ⟨2, _⟩ => rfl)

/-- The row of the second argument that the squared norm of point `m` reads at pair (b, n, m). -/
theorem idx_sqY (b : Fin 4) (n m : Fin 8192) (d : Fin 3) :
    idx_main_v3 (idx_main_v6 (idx_main_v8 (ix3 b n m))) d = ix3 b m d :=
  funext fun a => Fin.ext (by match a with | ⟨0, _⟩ => rfl | ⟨1, _⟩ => rfl | ⟨2, _⟩ => rfl)

/-- The left factor of the inner product at pair (b, n, m) is point `n` of the first argument. -/
theorem idx_dotL (b : Fin 4) (n m : Fin 8192) (d : Fin 3) :
    lidx_main_v4 (ix3 b n m) d = ix3 b n d :=
  funext fun a => Fin.ext (by match a with | ⟨0, _⟩ => rfl | ⟨1, _⟩ => rfl | ⟨2, _⟩ => rfl)

/-- The right factor of the inner product at pair (b, n, m) is point `m` of the second argument. -/
theorem idx_dotR (b : Fin 4) (n m : Fin 8192) (d : Fin 3) :
    ridx_main_v4 (ix3 b n m) d = ix3 b m d :=
  funext fun a => Fin.ext (by match a with | ⟨0, _⟩ => rfl | ⟨1, _⟩ => rfl | ⟨2, _⟩ => rfl)

/-! ## The distance array -/

/-- The distance array at (b, n, m) is the clamped root of the squared distance of point `n` and point `m`. -/
theorem dist_apply (x0 x1 : (⟨S4x8192x3, .f32⟩ : BufTy).Contents (Elt Ideal)) (b : Fin 4) (n m : Fin 8192) :
    val_main_v15 (F := Ideal) x0 x1 (ix3 b n m) = clampRoot (d2 x0 x1 b n m) := by
  rw [val_main_v15_apply, val_main_v14_apply, val_main_v12_apply, val_main_v9_apply, val_main_v11_apply,
    val_main_v13_apply, val_main_cst_2_apply, val_main_v10_apply, val_main_cst_1_apply, val_main_v4_apply,
    val_main_v7_apply, val_main_v5_apply, val_main_v1_apply, val_main_cst_apply,
    val_main_v8_apply, val_main_v6_apply, val_main_v3_apply, val_main_cst_0_apply]
  simp only [val_main_v0_apply, val_main_v2_apply, idx_sqX, idx_sqY, idx_dotL, idx_dotR,
    Ideal.hostUnary_sqrt_def, Ideal.maximumf_def, Ideal.subf_def, Ideal.addf_def, Ideal.mulf_def, Ideal.ofBits_def,
    Ideal.ofBits_zero_f32, two_f32, zero_add]
  rfl

/-! ## The two minimum reductions -/

/-- Over the pair (b, m), inserting `n` on the middle axis gives (b, n, m). -/
theorem lift_d1 (h : S4x8192x8192.Reduces [1] S4x8192) (b : Fin 4) (m n : Fin 8192) :
    h.lift (ix2 b m) n = ix3 b n m :=
  funext fun a => Fin.ext (by match a with | ⟨0, _⟩ => rfl | ⟨1, _⟩ => rfl | ⟨2, _⟩ => rfl)

/-- Over the pair (b, n), inserting `m` on the last axis gives (b, n, m). -/
theorem lift_d2 (h : S4x8192x8192.Reduces [2] S4x8192) (b : Fin 4) (n m : Fin 8192) :
    h.lift (ix2 b n) m = ix3 b n m :=
  funext fun a => Fin.ext (by match a with | ⟨0, _⟩ => rfl | ⟨1, _⟩ => rfl | ⟨2, _⟩ => rfl)

/-- A minimum reduction over the middle axis, read at (b, m): the fold of `min` from the initial value over `n`. -/
theorem reduce_min_d1 (P : (⟨S4x8192x8192, .f32⟩ : BufTy).Contents (Elt Ideal))
    (init : (⟨S_, .f32⟩ : BufTy).Contents (Elt Ideal)) (b : Fin 4) (m : Fin 8192) :
    Host.reduce (FloatOps.minimumf (F := Ideal) (φ := .f32)) P init reducesTo_S4x8192x8192_S4x8192_d1 h_S_ (ix2 b m)
      = (Finset.univ : Finset (Fin 8192)).fold min (init (Shape.Idx.first h_S_)) (fun n => P (ix3 b n m)) := by
  have h : S4x8192x8192.Reduces [1] S4x8192 := by decide
  refine (Host.reduce_eq_fold_single _ P init reducesTo_S4x8192x8192_S4x8192_d1 h h_S_ (ix2 b m)).trans ?_
  have e : (P ∘ h.lift (ix2 b m)) = fun n : Fin 8192 => P (ix3 b n m) :=
    funext fun n => congrArg P (lift_d1 h b m n)
  rw [e]
  rfl

/-- A minimum reduction over the last axis, read at (b, n): the fold of `min` from the initial value over `m`. -/
theorem reduce_min_d2 (P : (⟨S4x8192x8192, .f32⟩ : BufTy).Contents (Elt Ideal))
    (init : (⟨S_, .f32⟩ : BufTy).Contents (Elt Ideal)) (b : Fin 4) (n : Fin 8192) :
    Host.reduce (FloatOps.minimumf (F := Ideal) (φ := .f32)) P init reducesTo_S4x8192x8192_S4x8192_d2 h_S_ (ix2 b n)
      = (Finset.univ : Finset (Fin 8192)).fold min (init (Shape.Idx.first h_S_)) (fun m => P (ix3 b n m)) := by
  have h : S4x8192x8192.Reduces [2] S4x8192 := by decide
  refine (Host.reduce_eq_fold_single _ P init reducesTo_S4x8192x8192_S4x8192_d2 h h_S_ (ix2 b n)).trans ?_
  have e : (P ∘ h.lift (ix2 b n)) = fun m : Fin 8192 => P (ix3 b n m) :=
    funext fun m => congrArg P (lift_d2 h b n m)
  rw [e]
  rfl

/-- At point `m` of the second cloud: the least distance to a point of the first cloud. -/
theorem min_d1 (x0 x1 : (⟨S4x8192x3, .f32⟩ : BufTy).Contents (Elt Ideal)) (b : Fin 4) (m : Fin 8192) :
    val_main_v16 (F := Ideal) x0 x1 (ix2 b m)
      = minOver Finset.univ (fun n : Fin 8192 => clampRoot (d2 x0 x1 b n m)) := by
  unfold val_main_v16
  rw [reduce_min_d1, val_main_cst_3_apply, Ideal.ofBits_def, top_f32]
  unfold minOver
  exact Finset.fold_congr (fun n _ => dist_apply x0 x1 b n m)

/-- At point `n` of the first cloud: the least distance to a point of the second cloud. -/
theorem min_d2 (x0 x1 : (⟨S4x8192x3, .f32⟩ : BufTy).Contents (Elt Ideal)) (b : Fin 4) (n : Fin 8192) :
    val_main_v18 (F := Ideal) x0 x1 (ix2 b n)
      = minOver Finset.univ (fun m : Fin 8192 => clampRoot (d2 x0 x1 b n m)) := by
  unfold val_main_v18
  rw [reduce_min_d2, val_main_cst_5_apply, Ideal.ofBits_def, top_f32]
  unfold minOver
  exact Finset.fold_congr (fun m _ => dist_apply x0 x1 b n m)

/-! ## The two sums and the result -/

/-- The first sum reads the minima at (b, k), `b` the batch of the result index. -/
theorem idx_sum1 (i : S4.Idx) (k : Fin 8192) :
    idx_main_v17 i k = ix2 (⟨(i 0).val, (i 0).isLt⟩ : Fin 4) k :=
  funext fun a => Fin.ext (by match a with | ⟨0, _⟩ => rfl | ⟨1, _⟩ => rfl)

/-- The second sum reads the minima at (b, k), `b` the batch of the result index. -/
theorem idx_sum2 (i : S4.Idx) (k : Fin 8192) :
    idx_main_v19 i k = ix2 (⟨(i 0).val, (i 0).isLt⟩ : Fin 4) k :=
  funext fun a => Fin.ext (by match a with | ⟨0, _⟩ => rfl | ⟨1, _⟩ => rfl)

/-- The reference's result, read index by index, is the first arrangement of the specification. -/
theorem ref_value (x0 x1 : (⟨S4x8192x3, .f32⟩ : BufTy).Contents (Elt Ideal)) :
    val_main_v20 (F := Ideal) x0 x1 = Gref x0 x1 := by
  funext i
  rw [val_main_v20_apply, val_main_v17_apply, val_main_v19_apply, val_main_cst_4_apply, val_main_cst_6_apply]
  simp only [idx_sum1, idx_sum2, min_d1, min_d2, Ideal.addf_def, Ideal.ofBits_def, Ideal.ofBits_zero_f32]
  rfl

end Cert.Chamfer.Ref

end
-- ==== Proof.Algebra.lean ====
/-
  The two arrangements of the specification agree when every coordinate is a real number.

  Three facts are used. (a) For real coordinates the squared distance |x|² + |y|² − 2⟨x, y⟩ has the same value whether
  the cross term is one inner product doubled and subtracted, or the factor −2 is folded into the first point's
  coordinates and the three products are added in order: both are the same polynomial identity in ℝ (in the extended
  reals subtraction and distributivity fail at the infinities, so the identity is carried out in ℝ and transported by
  the coercion). (b) The map x ↦ √(max x 0) is monotone on the extended reals and sends +∞ to +∞. (c) A monotone map
  that fixes +∞ commutes with the minimum over a finite set, since that minimum is the fold of `min` from +∞.
  Hence the root of the minimum of the squared distances is the minimum of the roots, and the two sums agree term by
  term.
-/
import proofs.«131806_j70927089926224_2_alg».proof.Proof.Spec

noncomputable section

open scoped BigOperators

namespace Cert.Chamfer

open Idealize.ShloMosaic Idealize.ShloMosaic.ValueIdx

/-- Equal functions on the set give equal minima. -/
theorem minOver_congr {ι : Type} (s : Finset ι) (f g : ι → EReal) (h : ∀ x ∈ s, f x = g x) :
    minOver s f = minOver s g := by
  unfold minOver
  exact Finset.fold_congr h

/-- (a) With real coordinates the two arrangements of the squared distance agree. -/
theorem d2K_eq_d2 (X Y : SPts.Idx → EReal) (hX : ∀ i, ∃ r : ℝ, X i = (r : EReal))
    (hY : ∀ i, ∃ r : ℝ, Y i = (r : EReal)) (b : Fin 4) (n m : Fin 8192) :
    d2K X Y b n m = d2 X Y b n m := by
  obtain ⟨x0, hx0⟩ := hX (ix3 b n 0)
  obtain ⟨x1, hx1⟩ := hX (ix3 b n 1)
  obtain ⟨x2, hx2⟩ := hX (ix3 b n 2)
  obtain ⟨y0, hy0⟩ := hY (ix3 b m 0)
  obtain ⟨y1, hy1⟩ := hY (ix3 b m 1)
  obtain ⟨y2, hy2⟩ := hY (ix3 b m 2)
  unfold d2K d2 sq dot
  simp only [Fin.sum_univ_three, hx0, hx1, hx2, hy0, hy1, hy2]
  simp only [← EReal.coe_mul, ← EReal.coe_add, ← EReal.coe_sub]
  congr 1
  ring

/-- The square root is monotone on the extended reals. -/
theorem sqrt_mono {x y : EReal} (h : x ≤ y) : Ideal.sqrt x ≤ Ideal.sqrt y := by
  induction x using EReal.rec with
  | bot => simp
  | top =>
    have : y = ⊤ := top_le_iff.mp h
    subst this; exact le_rfl
  | coe r =>
    induction y using EReal.rec with
    | bot => exact absurd h (by simp)
    | top => simp
    | coe s =>
      have hrs : r ≤ s := EReal.coe_le_coe_iff.mp h
      simp only [Ideal.sqrt_coe]
      by_cases hr : r < 0
      · simp [hr]
      · have hs : ¬ s < 0 := fun hs => hr (lt_of_le_of_lt hrs hs)
        simp only [hr, hs, if_false]
        exact EReal.coe_le_coe_iff.mpr (Real.sqrt_le_sqrt hrs)

/-- (b) The clamped root is monotone. -/
theorem clampRoot_mono : Monotone clampRoot := by
  intro x y h
  unfold clampRoot
  exact sqrt_mono (max_le_max h le_rfl)

/-- (b) The clamped root of +∞ is +∞. -/
theorem clampRoot_top : clampRoot ⊤ = ⊤ := by
  unfold clampRoot
  simp

/-- (c) The clamped root commutes with the minimum over a finite set. -/
theorem clampRoot_minOver {ι : Type} (s : Finset ι) (f : ι → EReal) :
    clampRoot (minOver s f) = minOver s (fun x => clampRoot (f x)) := by
  classical
  unfold minOver
  induction s using Finset.induction_on with
  | empty => simp [clampRoot_top]
  | insert a s ha ih =>
    rw [Finset.fold_insert ha, Finset.fold_insert ha, clampRoot_mono.map_min, ih]

/-- When every coordinate is a real number the two arrangements of the specification agree. -/
theorem GK_eq_Gref (X Y : SPts.Idx → EReal) (hX : ∀ i, ∃ r : ℝ, X i = (r : EReal)) (hY : ∀ i, ∃ r : ℝ, Y i = (r : EReal)) :
    GK X Y = Gref X Y := by
  funext i
  unfold GK Gref GKB GrefB
  congr 2
  · refine Finset.sum_congr rfl (fun m _ => ?_)
    rw [clampRoot_minOver]
    exact minOver_congr _ _ _ (fun n _ => by rw [d2K_eq_d2 X Y hX hY])
  · refine Finset.sum_congr rfl (fun n _ => ?_)
    rw [clampRoot_minOver]
    exact minOver_congr _ _ _ (fun m _ => by rw [d2K_eq_d2 X Y hX hY])

end Cert.Chamfer
-- ==== Proof.Finite.lean ====
/-
  The precondition gives real coordinates.

  The precondition states that, for each of the two argument arrays, the conjunction over all entries x of the
  comparison |x| < +∞ is true, and that the conjunction of these two truth values is true. A conjunction of bits that
  is 1 has every conjunct 1, so the comparison holds at every entry of both arrays. On the extended reals
  |x| = max x (−x) is +∞ at both infinities, so |x| < +∞ leaves only the real numbers.
-/
import proofs.«131806_j70927089926224_2_alg».proof.Defs
import proofs.«131806_j70927089926224_2_alg».proof.Proof.Gen.Pre_finite_inputs
import Idealize.ShloMosaic.Lib.ReduceAll
import Idealize.ShloMosaic.Lib.ValueIdx

noncomputable section

namespace Cert.Chamfer

open Idealize.ShloMosaic Idealize.SL.Sem

/-- An extended real whose absolute value compares below the f32 pattern of +∞ is a real number: the pattern is +∞,
    and at x = ±∞ the absolute value max x (−x) is +∞, which is not below +∞. -/
theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- The rank-0 shape has exactly one index. -/
instance subsingleton_rank0_idx : Subsingleton Cert.Pre_finite_inputs.S_.Idx := ⟨fun a b => funext fun d => d.elim0⟩

/-- Under the precondition every entry of both argument arrays is a real number. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  -- the precondition at its single result index: the conjunction of the two all-entries conjunctions is 1
  have h0 := congrFun (h c) ValueIdx.ix0
  dsimp only [Cert.Pre_finite_inputs.fn] at h0
  -- so each of the two is 1
  obtain ⟨ha, hb⟩ := IntOp.andi_eq_one.1 h0
  -- and then the comparison |x| < +∞ is 1 at every entry, which makes the entry real
  refine ⟨fun i => ?_, fun i => ?_⟩
  · exact real_of_abs_lt_top _ (Host.reduce_andi_all _ _ _ _ _ ha i)
  · exact real_of_abs_lt_top _ (Host.reduce_andi_all _ _ _ _ _ hb i)

end Cert.Chamfer
-- ==== Proof.KernelDefs.lean ====
/-
  Names for the kernel side: the two argument arrays as functions of an index, and the batch and the rows a grid
  point works on. The grid is 4 batches × 4 row tiles of 2048 points × 8 column tiles of 1024 points, visited in that
  order: point t = 32·b + 8·i + j.
-/
import proofs.«131806_j70927089926224_2_alg».proof.Proof.Gen.KernelIdeal.Frame
import proofs.«131806_j70927089926224_2_alg».proof.Proof.Spec

noncomputable section

namespace Cert.KernelIdeal.Acc

open Cert.KernelIdeal Cert.KernelIdeal.Gen Cert.Chamfer
open Idealize.ShloMosaic Idealize.ShloMosaic.TcCoe Idealize.SL.Sem Idealize.ShloMosaic.ValueIdx

variable (m : (ℓ : Loc nD τ sig) → Buf (Elt Ideal) ℓ)

/-- The first argument array (the first point set) on core `c`. -/
abbrev X (c : Dev nD) : SPts.Idx → EReal := m ((c.tc : Thread nD τ).loc main_arg0)
/-- The second argument array (the second point set) on core `c`. -/
abbrev Y (c : Dev nD) : SPts.Idx → EReal := m ((c.tc : Thread nD τ).loc main_arg1)

/-- The batch of grid point `t`. -/
def batchOf (t : Fin cfg0.N) : Fin 4 :=
  ⟨t.val / 32, by have := t.isLt; have hN : cfg0.N = 128 := N_0; omega⟩

/-- Row `r` of the row tile of grid point `t`, as a row of the whole point set. -/
def rowOf (t : Fin cfg0.N) (r : Fin 2048) : Fin 8192 :=
  ⟨(t.val / 8 % 4) * 2048 + r.val, by have := r.isLt; omega⟩

end Cert.KernelIdeal.Acc

end
-- ==== Proof.KernelBlocks.lean ====
import proofs.«131806_j70927089926224_2_alg».proof.Proof.KernelDefs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Acc

open Cert.KernelIdeal Cert.KernelIdeal.Gen Cert.Chamfer Idealize.ShloMosaic Idealize.ShloMosaic.TcCoe Idealize.SL.Sem Idealize.ShloMosaic.ValueIdx

/-- Column `q` of the column tile of grid point `t`, as a column of the whole second point set. -/
def colOf (t : Fin cfg0.N) (q : Fin 1024) : Fin 8192 :=
  ⟨(t.val % 8) * 1024 + q.val, by have := q.isLt; omega⟩

/-- The block index of the first window at grid point `t`: batch, row tile, 0. -/
theorem index_win0 : ∀ t : Fin grid0.N,
    win0_0.index t 0 = t.val / 32 ∧ win0_0.index t 1 = t.val / 8 % 4 ∧ win0_0.index t 2 = 0 := by
  decide +kernel

/-- The block index of the second window at grid point `t`: batch, 0, column tile. -/
theorem index_win1 : ∀ t : Fin grid0.N,
    win0_1.index t 0 = t.val / 32 ∧ win0_1.index t 1 = 0 ∧ win0_1.index t 2 = t.val % 8 := by
  decide +kernel

/-- The array the second window stages is the second argument array with its last two axes swapped. -/
theorem V_main_v0 (m : (ℓ : Loc nD τ sig) → Buf (Elt Ideal) ℓ) (c : Dev nD) :
    (V (F := Ideal) m c main_v0 : S4x3x8192.Idx → EReal)
      = transpose S4x3x8192 [0, 2, 1] (m ((c.tc : Thread nD τ).loc main_arg1)) transposes_S4x8192x3_S4x3x8192_0_2_1 := by
  dsimp only [Gen.V, Gen.V0]
  simp only [Gen.hostOps0, List.flatten_cons, List.flatten_nil, List.append_nil]
  after_results

/-- The first window's block at point `t` is rows `rowOf t ·` of batch `batchOf t` of the first argument array. -/
theorem iblk0_apply (m : (ℓ : Loc nD τ sig) → Buf (Elt Ideal) ℓ) (c : Dev nD) (t : Fin cfg0.N) (r : Fin 2048) (d : Fin 3) :
    (iblk (F := Ideal) m c 0 t : Vec Ideal S1x2048x3 .f32) (ix3 (0 : Fin 1) r d) = X m c (ix3 (batchOf t) (rowOf t r) d) := by
  have hi := index_win0 t
  unfold iblk
  rw [View.read_apply]
  show V m c main_arg0 _ = m ((c.tc : Thread nD τ).loc main_arg0) _
  rw [V_main_arg0]
  congr 1
  funext a
  apply Fin.ext
  match a with
  | ⟨0, _⟩ =>
    show win0_0.index t 0 * 1 + 1 * 0 = t.val / 32
    rw [hi.1]; omega
  | ⟨1, _⟩ =>
    show win0_0.index t 1 * 2048 + 1 * r.val = (t.val / 8 % 4) * 2048 + r.val
    rw [hi.2.1]; omega
  | ⟨2, _⟩ =>
    show win0_0.index t 2 * 3 + 1 * d.val = d.val
    rw [hi.2.2]; omega

/-- The second window's block at point `t` is columns `colOf t ·` of batch `batchOf t` of the TRANSPOSED second argument
    array: coordinate `d` of point `colOf t q`. -/
theorem iblk1_apply (m : (ℓ : Loc nD τ sig) → Buf (Elt Ideal) ℓ) (c : Dev nD) (t : Fin cfg0.N) (d : Fin 3) (q : Fin 1024) :
    (iblk (F := Ideal) m c 1 t : Vec Ideal S1x3x1024 .f32) (ix3 (0 : Fin 1) d q) = Y m c (ix3 (batchOf t) (colOf t q) d) := by
  have hi := index_win1 t
  unfold iblk
  rw [View.read_apply]
  show V m c main_v0 _ = m ((c.tc : Thread nD τ).loc main_arg1) _
  rw [V_main_v0]
  refine Eq.trans ?_ (transpose_ix3_021_apply (m ((c.tc : Thread nD τ).loc main_arg1))
    transposes_S4x8192x3_S4x3x8192_0_2_1 (batchOf t) d (colOf t q))
  congr 1
  funext a
  apply Fin.ext
  match a with
  | ⟨0, _⟩ =>
    show win0_1.index t 0 * 1 + 1 * 0 = t.val / 32
    rw [hi.1]; omega
  | ⟨1, _⟩ =>
    show win0_1.index t 1 * 3 + 1 * d.val = d.val
    rw [hi.2.1]; omega
  | ⟨2, _⟩ =>
    show win0_1.index t 2 * 1024 + 1 * q.val = (t.val % 8) * 1024 + q.val
    rw [hi.2.2]; omega

end Cert.KernelIdeal.Acc

end
-- ==== Proof.KernelPieces.lean ====
/-
  What one run of the body leaves in memory, case by case. The body always loads its two input blocks, forms the
  tile of squared distances, replaces the first scratch by the minimum of its old contents and the tile's row minima,
  and replaces ONE 1024-wide slice of the second scratch (the slice of the current column tile) by the minimum of its old
  contents and the tile's column minima. At the first column tile of a row tile the first scratch is first filled with
  +∞; at the first point of a batch so is the second. At the last column tile the first scratch is copied to the first
  output's block, and at the last point of a batch the second scratch to the second output's block.
-/
import proofs.«131806_j70927089926224_2_alg».proof.Proof.Gen.KernelIdeal.Frame
import proofs.«131806_j70927089926224_2_alg».proof.Proof.Spec
import Idealize.ShloMosaic.Lib.Pipeline.Value
import Idealize.ShloMosaic.Lib.ValueIdx
import Idealize.ShloMosaic.Lib.WritesUnit
import Idealize.ShloMosaic.Lib.Tactic

noncomputable section

namespace Cert.KernelIdeal.Acc

open Cert.KernelIdeal Cert.KernelIdeal.Gen Cert.Chamfer
open Idealize.ShloMosaic Idealize.ShloMosaic.TcCoe Idealize.SL.Sem Idealize.ShloMosaic.ValueIdx Idealize.ShloMosaic.Tactic

variable {F : FTy → Type} [FloatOps F]

/-- The zero offsets of a rank-1 buffer, spelt as a function. -/
theorem hz1 : (![0] : Fin 1 → Nat) = fun _ => 0 := funext fun a => by fin_cases a; rfl
/-- The zero offsets of a rank-3 buffer, spelt as a function. -/
theorem hz3 : (![0, 0, 0] : Fin 3 → Nat) = fun _ => 0 := funext fun a => by fin_cases a <;> rfl

/-- One store of the whole 8192-buffer, read back, is its payload. -/
theorem read_whole_store {sig' : RefSig} {κ : Kind} {sp : Space} (v : View sig' κ sp S8192 .f32) (f : v.ty.Contents (Elt F))
    (inb : ∀ a, (![0] : Fin 1 → Nat) a + S8192.size a ≤ S8192.size a) (w : S8192.Idx → Elt F .f32) :
    v.read (Elt F) (v.writes (Elt F) f [(⟨Rect.unit ![0] S8192.size inb, w⟩ : View.Piece (Elt F) S8192 .f32)]) = w := by
  rw [View.read_writes_eq_canon _ _ _ (fun y => ⟨_, List.mem_singleton_self _, View.mem_set_unit_zero hz1 inb y⟩),
    View.canon_unit_zero hz1]

/-! ## The first scratch: the running row minima -/

/-- Case A (first column tile of a row tile): the first scratch ends at the minimum of +∞ and the tile's row minima. -/
theorem s0_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : cond0_0 i) (hc1 : cond0_1 i) (hc2 : ¬cond0_2 i) (hc3 : ¬cond0_3 i) (x0 : Vec F S1x2048x3 .f32) (x1 : Vec F S1x3x1024 .f32) :
    sout0_A_0 c i arg3 harg3 arg4 harg4 arg5 harg5 arg6 harg6 arg7 harg7 arg8 harg8 hc0 hc1 hc2 hc3 x0 x1 = k0_pay1 (k0_pay7 x0 x1) k0_pay5 := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S2048) hz1, View.readCov_unit_zero (S := S2048) _ hz1]
  simp only [View.readAt_eq_ld, harg3.read_unread, harg4.read_unread, harg7.read_unread, View.ld_unit_zero (S := S1x2048x3) hz3,
    View.ld_unit_zero (S := S1x3x1024) hz3, View.ld_unit_zero (S := S2048) hz1]

/-- Case D (first column tile of a row tile): the first scratch ends at the minimum of +∞ and the tile's row minima. -/
theorem s0_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : cond0_0 i) (hc1 : ¬cond0_1 i) (hc2 : ¬cond0_2 i) (hc3 : ¬cond0_3 i) (x0 : Vec F S1x2048x3 .f32) (x1 : Vec F S1x3x1024 .f32) (xs1 : Vec F S8192 .f32) :
    sout0_D_0 c i arg3 harg3 arg4 harg4 arg5 harg5 arg6 harg6 arg7 harg7 arg8 harg8 hc0 hc1 hc2 hc3 x0 x1 xs1 = k0_pay1 (k0_pay7 x0 x1) k0_pay5 := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S2048) hz1, View.readCov_unit_zero (S := S2048) _ hz1]
  simp only [View.readAt_eq_ld, harg3.read_unread, harg4.read_unread, harg7.read_unread, View.ld_unit_zero (S := S1x2048x3) hz3,
    View.ld_unit_zero (S := S1x3x1024) hz3, View.ld_unit_zero (S := S2048) hz1]

/-- Case B: the first scratch ends at the minimum of its old contents and the tile's row minima. -/
theorem s0_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : ¬cond0_2 i) (hc3 : ¬cond0_3 i) (x0 : Vec F S1x2048x3 .f32) (x1 : Vec F S1x3x1024 .f32) (xs0 : Vec F S2048 .f32) (xs1 : Vec F S8192 .f32) :
    sout0_B_0 c i arg3 harg3 arg4 harg4 arg5 harg5 arg6 harg6 arg7 harg7 arg8 harg8 hc0 hc1 hc2 hc3 x0 x1 xs0 xs1 = k0_pay1 (k0_pay7 x0 x1) xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz1]
  simp only [View.readAt_eq_ld, harg3.read_unread, harg4.read_unread, harg7.read_unread, View.ld_unit_zero (S := S1x2048x3) hz3,
    View.ld_unit_zero (S := S1x3x1024) hz3, View.ld_unit_zero (S := S2048) hz1]

/-- Case C: the first scratch ends at the minimum of its old contents and the tile's row minima. -/
theorem s0_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048 .f32) (xs1 : Vec F S8192 .f32) :
    sout0_C_0 c i arg3 harg3 arg4 harg4 arg5 harg5 arg6 harg6 arg7 harg7 arg8 harg8 hc0 hc1 hc2 hc3 x0 x1 xs0 xs1 = k0_pay1 (k0_pay7 x0 x1) xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz1]
  simp only [View.readAt_eq_ld, harg3.read_unread, harg4.read_unread, harg7.read_unread, View.ld_unit_zero (S := S1x2048x3) hz3,
    View.ld_unit_zero (S := S1x3x1024) hz3, View.ld_unit_zero (S := S2048) hz1]

/-- Case E: the first scratch ends at the minimum of its old contents and the tile's row minima. -/
theorem s0_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048 .f32) (xs1 : Vec F S8192 .f32) :
    sout0_E_0 c i arg3 harg3 arg4 harg4 arg5 harg5 arg6 harg6 arg7 harg7 arg8 harg8 hc0 hc1 hc2 hc3 x0 x1 xs0 xs1 = k0_pay1 (k0_pay7 x0 x1) xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz1]
  simp only [View.readAt_eq_ld, harg3.read_unread, harg4.read_unread, harg7.read_unread, View.ld_unit_zero (S := S1x2048x3) hz3,
    View.ld_unit_zero (S := S1x3x1024) hz3, View.ld_unit_zero (S := S2048) hz1]

/-! ## The first output: the first scratch, copied at the last column tile -/

/-- Case C: the first output's block ends at the new contents of the first scratch, with two unit axes in front. -/
theorem o2_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048 .f32) (xs1 : Vec F S8192 .f32) :
    out0_C_2 c i arg3 harg3 arg4 harg4 arg5 harg5 arg6 harg6 arg7 harg7 arg8 harg8 hc0 hc1 hc2 hc3 x0 x1 xs0 xs1 = k0_pay3 (k0_pay1 (k0_pay7 x0 x1) xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3, View.readCov_unit_zero (S := S2048) _ hz1]
  simp only [View.readAt_eq_ld, harg3.read_unread, harg4.read_unread, harg7.read_unread, View.ld_unit_zero (S := S1x2048x3) hz3,
    View.ld_unit_zero (S := S1x3x1024) hz3, View.ld_unit_zero (S := S2048) hz1]

/-- Case E: the first output's block ends at the new contents of the first scratch, with two unit axes in front. -/
theorem o2_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048 .f32) (xs1 : Vec F S8192 .f32) :
    out0_E_2 c i arg3 harg3 arg4 harg4 arg5 harg5 arg6 harg6 arg7 harg7 arg8 harg8 hc0 hc1 hc2 hc3 x0 x1 xs0 xs1 = k0_pay3 (k0_pay1 (k0_pay7 x0 x1) xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3, View.readCov_unit_zero (S := S2048) _ hz1]
  simp only [View.readAt_eq_ld, harg3.read_unread, harg4.read_unread, harg7.read_unread, View.ld_unit_zero (S := S1x2048x3) hz3,
    View.ld_unit_zero (S := S1x3x1024) hz3, View.ld_unit_zero (S := S2048) hz1]

/-! ## The second output: the second scratch, copied at the last point of a batch -/

/-- Case E: the second output's block ends at the new contents of the second scratch, with two unit axes in front. -/
theorem o3_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048 .f32) (xs1 : Vec F S8192 .f32) :
    out0_E_3 c i arg3 harg3 arg4 harg4 arg5 harg5 arg6 harg6 arg7 harg7 arg8 harg8 hc0 hc1 hc2 hc3 x0 x1 xs0 xs1 = k0_pay4 (sout0_E_1 c i arg3 harg3 arg4 harg4 arg5 harg5 arg6 harg6 arg7 harg7 arg8 harg8 hc0 hc1 hc2 hc3 x0 x1 xs0 xs1) := by
  unfold out0_E_3 sout0_E_1
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  rw [View.canon_unit_zero hz3]
  simp only [View.readAt_eq_ld, View.ld_unit_zero (S := S8192) hz1]

/-! ## The second scratch: the running column minima, one slice per point

`off'` is the slice's offset in closed form (the body computes it as a machine word from the column-tile coordinate). -/

/-- Case B, inside the slice: the minimum of the old contents there and the tile's column minimum. -/
theorem s1_hit_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : ¬cond0_2 i) (hc3 : ¬cond0_3 i) (x0 : Vec F S1x2048x3 .f32) (x1 : Vec F S1x3x1024 .f32) (xs0 : Vec F S2048 .f32) (xs1 : Vec F S8192 .f32) (off' : Fin 1 → ℕ) (heq : k0_off1 i = off')
    (y : S8192.Idx) (x : S1024.Idx) (hx : ∀ a, (y a).val = off' a + (x a).val) :
    sout0_B_1 c i arg3 harg3 arg4 harg4 arg5 harg5 arg6 harg6 arg7 harg7 arg8 harg8 hc0 hc1 hc2 hc3 x0 x1 xs0 xs1 y
      = k0_pay2 (k0_pay7 x0 x1) (View.ld xs1 (Rect.unit (k0_off1 i) S1024.size (k0_off1_inb i))) x := by
  unfold sout0_B_1 kernelRun0_B
  dsimp only
  refine (View.read_writes_cons_unit_of_mem arg8.view (harg8.unread xs1) _ _ [] y x heq hx).trans ?_
  sl_unfold_words
  simp only [View.readAt_eq_ld, harg3.read_unread, harg4.read_unread, harg8.read_unread, View.ld_unit_zero (S := S1x2048x3) hz3,
    View.ld_unit_zero (S := S1x3x1024) hz3]

/-- Case B, outside the slice: the old contents. -/
theorem s1_miss_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : ¬cond0_2 i) (hc3 : ¬cond0_3 i) (x0 : Vec F S1x2048x3 .f32) (x1 : Vec F S1x3x1024 .f32) (xs0 : Vec F S2048 .f32) (xs1 : Vec F S8192 .f32) (off' : Fin 1 → ℕ) (heq : k0_off1 i = off')
    (y : S8192.Idx) (hy : (y 0).val < off' 0 ∨ off' 0 + 1024 ≤ (y 0).val) :
    sout0_B_1 c i arg3 harg3 arg4 harg4 arg5 harg5 arg6 harg6 arg7 harg7 arg8 harg8 hc0 hc1 hc2 hc3 x0 x1 xs0 xs1 y = xs1 y := by
  unfold sout0_B_1 kernelRun0_B
  dsimp only
  refine (View.read_writes_cons_unit_of_not_mem arg8.view (harg8.unread xs1) _ _ [] y heq 0 hy).trans ?_
  rw [View.writes_nil, harg8.read_unread]

/-- Case C, inside the slice: the minimum of the old contents there and the tile's column minimum. -/
theorem s1_hit_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048 .f32) (xs1 : Vec F S8192 .f32) (off' : Fin 1 → ℕ) (heq : k0_off1 i = off')
    (y : S8192.Idx) (x : S1024.Idx) (hx : ∀ a, (y a).val = off' a + (x a).val) :
    sout0_C_1 c i arg3 harg3 arg4 harg4 arg5 harg5 arg6 harg6 arg7 harg7 arg8 harg8 hc0 hc1 hc2 hc3 x0 x1 xs0 xs1 y
      = k0_pay2 (k0_pay7 x0 x1) (View.ld xs1 (Rect.unit (k0_off1 i) S1024.size (k0_off1_inb i))) x := by
  unfold sout0_C_1 kernelRun0_C
  dsimp only
  refine (View.read_writes_cons_unit_of_mem arg8.view (harg8.unread xs1) _ _ [] y x heq hx).trans ?_
  sl_unfold_words
  simp only [View.readAt_eq_ld, harg3.read_unread, harg4.read_unread, harg8.read_unread, View.ld_unit_zero (S := S1x2048x3) hz3,
    View.ld_unit_zero (S := S1x3x1024) hz3]

/-- Case C, outside the slice: the old contents. -/
theorem s1_miss_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : ¬cond0_3 i) (x0 : Vec F S1x2048x3 .f32) (x1 : Vec F S1x3x1024 .f32) (xs0 : Vec F S2048 .f32) (xs1 : Vec F S8192 .f32) (off' : Fin 1 → ℕ) (heq : k0_off1 i = off')
    (y : S8192.Idx) (hy : (y 0).val < off' 0 ∨ off' 0 + 1024 ≤ (y 0).val) :
    sout0_C_1 c i arg3 harg3 arg4 harg4 arg5 harg5 arg6 harg6 arg7 harg7 arg8 harg8 hc0 hc1 hc2 hc3 x0 x1 xs0 xs1 y = xs1 y := by
  unfold sout0_C_1 kernelRun0_C
  dsimp only
  refine (View.read_writes_cons_unit_of_not_mem arg8.view (harg8.unread xs1) _ _ [] y heq 0 hy).trans ?_
  rw [View.writes_nil, harg8.read_unread]

/-- Case D, inside the slice: the minimum of the old contents there and the tile's column minimum. -/
theorem s1_hit_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : cond0_0 i) (hc1 : ¬cond0_1 i) (hc2 : ¬cond0_2 i) (hc3 : ¬cond0_3 i) (x0 : Vec F S1x2048x3 .f32) (x1 : Vec F S1x3x1024 .f32) (xs1 : Vec F S8192 .f32) (off' : Fin 1 → ℕ) (heq : k0_off1 i = off')
    (y : S8192.Idx) (x : S1024.Idx) (hx : ∀ a, (y a).val = off' a + (x a).val) :
    sout0_D_1 c i arg3 harg3 arg4 harg4 arg5 harg5 arg6 harg6 arg7 harg7 arg8 harg8 hc0 hc1 hc2 hc3 x0 x1 xs1 y
      = k0_pay2 (k0_pay7 x0 x1) (View.ld xs1 (Rect.unit (k0_off1 i) S1024.size (k0_off1_inb i))) x := by
  unfold sout0_D_1 kernelRun0_D
  dsimp only
  refine (View.read_writes_cons_unit_of_mem arg8.view (harg8.unread xs1) _ _ [] y x heq hx).trans ?_
  sl_unfold_words
  simp only [View.readAt_eq_ld, harg3.read_unread, harg4.read_unread, harg8.read_unread, View.ld_unit_zero (S := S1x2048x3) hz3,
    View.ld_unit_zero (S := S1x3x1024) hz3]

/-- Case D, outside the slice: the old contents. -/
theorem s1_miss_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : cond0_0 i) (hc1 : ¬cond0_1 i) (hc2 : ¬cond0_2 i) (hc3 : ¬cond0_3 i) (x0 : Vec F S1x2048x3 .f32) (x1 : Vec F S1x3x1024 .f32) (xs1 : Vec F S8192 .f32) (off' : Fin 1 → ℕ) (heq : k0_off1 i = off')
    (y : S8192.Idx) (hy : (y 0).val < off' 0 ∨ off' 0 + 1024 ≤ (y 0).val) :
    sout0_D_1 c i arg3 harg3 arg4 harg4 arg5 harg5 arg6 harg6 arg7 harg7 arg8 harg8 hc0 hc1 hc2 hc3 x0 x1 xs1 y = xs1 y := by
  unfold sout0_D_1 kernelRun0_D
  dsimp only
  refine (View.read_writes_cons_unit_of_not_mem arg8.view (harg8.unread xs1) _ _ [] y heq 0 hy).trans ?_
  rw [View.writes_nil, harg8.read_unread]

/-- Case E, inside the slice: the minimum of the old contents there and the tile's column minimum. -/
theorem s1_hit_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048 .f32) (xs1 : Vec F S8192 .f32) (off' : Fin 1 → ℕ) (heq : k0_off1 i = off')
    (y : S8192.Idx) (x : S1024.Idx) (hx : ∀ a, (y a).val = off' a + (x a).val) :
    sout0_E_1 c i arg3 harg3 arg4 harg4 arg5 harg5 arg6 harg6 arg7 harg7 arg8 harg8 hc0 hc1 hc2 hc3 x0 x1 xs0 xs1 y
      = k0_pay2 (k0_pay7 x0 x1) (View.ld xs1 (Rect.unit (k0_off1 i) S1024.size (k0_off1_inb i))) x := by
  unfold sout0_E_1 kernelRun0_E
  dsimp only
  refine (View.read_writes_cons_unit_of_mem arg8.view (harg8.unread xs1) _ _ [] y x heq hx).trans ?_
  sl_unfold_words
  simp only [View.readAt_eq_ld, harg3.read_unread, harg4.read_unread, harg8.read_unread, View.ld_unit_zero (S := S1x2048x3) hz3,
    View.ld_unit_zero (S := S1x3x1024) hz3]

/-- Case E, outside the slice: the old contents. -/
theorem s1_miss_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : ¬cond0_0 i) (hc1 : ¬cond0_1 i) (hc2 : cond0_2 i) (hc3 : cond0_3 i) (x0 : Vec F S1x2048x3 .f32) (x1 : Vec F S1x3x1024 .f32) (xs0 : Vec F S2048 .f32) (xs1 : Vec F S8192 .f32) (off' : Fin 1 → ℕ) (heq : k0_off1 i = off')
    (y : S8192.Idx) (hy : (y 0).val < off' 0 ∨ off' 0 + 1024 ≤ (y 0).val) :
    sout0_E_1 c i arg3 harg3 arg4 harg4 arg5 harg5 arg6 harg6 arg7 harg7 arg8 harg8 hc0 hc1 hc2 hc3 x0 x1 xs0 xs1 y = xs1 y := by
  unfold sout0_E_1 kernelRun0_E
  dsimp only
  refine (View.read_writes_cons_unit_of_not_mem arg8.view (harg8.unread xs1) _ _ [] y heq 0 hy).trans ?_
  rw [View.writes_nil, harg8.read_unread]

/-- Case A (first point of a batch), inside the slice: the minimum of +∞ and the tile's column minimum. -/
theorem s1_hit_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : cond0_0 i) (hc1 : cond0_1 i) (hc2 : ¬cond0_2 i) (hc3 : ¬cond0_3 i) (x0 : Vec F S1x2048x3 .f32) (x1 : Vec F S1x3x1024 .f32) (off' : Fin 1 → ℕ) (heq : k0_off1 i = off')
    (y : S8192.Idx) (x : S1024.Idx) (hx : ∀ a, (y a).val = off' a + (x a).val) :
    sout0_A_1 c i arg3 harg3 arg4 harg4 arg5 harg5 arg6 harg6 arg7 harg7 arg8 harg8 hc0 hc1 hc2 hc3 x0 x1 y
      = k0_pay2 (k0_pay7 x0 x1) (View.ld (k0_pay6 (F := F)) (Rect.unit (s := S8192) (k0_off1 i) S1024.size (k0_off1_inb i))) x := by
  unfold sout0_A_1 kernelRun0_A
  dsimp only
  refine (View.read_writes_cons_unit_of_mem VS0_1 VS0_1.junk _ _ _ y x heq hx).trans ?_
  sl_unfold_words
  simp only [View.readAt_eq_ld, harg3.read_unread, harg4.read_unread, View.ld_unit_zero (S := S1x2048x3) hz3,
    View.ld_unit_zero (S := S1x3x1024) hz3]
  rw [read_whole_store]

/-- Case A, outside the slice: +∞. -/
theorem s1_miss_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x8192 .f32) (harg6 : arg6.IsWhole) (arg7 : Memref sig .tc .vmem S2048 .f32) (harg7 : arg7.IsWhole) (arg8 : Memref sig .tc .vmem S8192 .f32) (harg8 : arg8.IsWhole) (hc0 : cond0_0 i) (hc1 : cond0_1 i) (hc2 : ¬cond0_2 i) (hc3 : ¬cond0_3 i) (x0 : Vec F S1x2048x3 .f32) (x1 : Vec F S1x3x1024 .f32) (off' : Fin 1 → ℕ) (heq : k0_off1 i = off')
    (y : S8192.Idx) (hy : (y 0).val < off' 0 ∨ off' 0 + 1024 ≤ (y 0).val) :
    sout0_A_1 c i arg3 harg3 arg4 harg4 arg5 harg5 arg6 harg6 arg7 harg7 arg8 harg8 hc0 hc1 hc2 hc3 x0 x1 y = k0_pay6 (F := F) y := by
  unfold sout0_A_1 kernelRun0_A
  dsimp only
  refine (View.read_writes_cons_unit_of_not_mem VS0_1 VS0_1.junk _ _ _ y heq 0 hy).trans ?_
  sl_unfold_words
  rw [read_whole_store]

end Cert.KernelIdeal.Acc

end
-- ==== Proof.KernelPayloads.lean ====
/-
  What each pure value stored by the kernel computes at ONE element, read over the extended reals.

  The distance tile: from a block of 2048 points (coordinates along the last axis) and a block of 1024 points given
  transposed (coordinates along the middle axis), the entry at row r and column q is the sum of the two squared norms
  plus the three products of the coordinates of point r, each multiplied by −2, with the coordinates of point q, added
  in order. Each layout operation in between reads one index of its operand: dropping a leading unit axis reads
  (0, i, j) at (i, j); a vector kept as a column and broadcast along the rows reads its entry r at (r, q); a vector kept
  as a row and broadcast down the columns reads its entry q; one column (one row) cut out of a matrix and broadcast
  reads the matrix at that column (that row). A sum over the axis of length 3 is the sum over its three coordinates.

  The two running minima: the minimum over one axis of the tile, taken from +∞, is the fold of `min` from +∞ over that
  axis's coordinates; the stored value is the minimum of it and the old contents. The remaining values are a vector
  read as a [1, 1, n] array (entry (0, 0, i) is entry i) and constant vectors of +∞.
-/
import proofs.«131806_j70927089926224_2_alg».proof.Proof.Gen.KernelIdeal.Skeleton
import proofs.«131806_j70927089926224_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Acc
open Cert.KernelIdeal Cert.KernelIdeal.Gen Cert.Chamfer Idealize.ShloMosaic Idealize.ShloMosaic.ValueIdx
open scoped BigOperators

section Keepdims
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Keepdims

section Reads
variable {α : Type}

/-- A column of a `[2048, 3]` array, kept as `[2048, 1]` and broadcast along the rows of a `[2048, 1024]` tile, reads
    at `(r, q)` the array at `(r, k)`, `k` the column's number. -/
theorem colRead (w : S2048x3.Idx → α) (o : ℕ) (k : Fin 3) (hk : k.val = o) (hs : S2048x3.Slices ![0, o] S2048x1)
    (hb : S2048x1.Broadcasts S2048x1024) (r : Fin 2048) (q : Fin 1024) :
    broadcastTo S2048x1024 (extractStridedSlice S2048x1 ![0, o] w hs) hb (ix2 r q) = w (ix2 r k) :=
  (broadcastTo_a1_ab_apply _ hb r q).trans
    (slice2_axis1_apply o w hs r (0 : Fin 1) k (by show k.val = o + 0; rw [hk, Nat.add_zero]))

/-- A row of a `[3, 1024]` array, kept as `[1, 1024]` and broadcast down the columns of a `[2048, 1024]` tile, reads
    at `(r, q)` the array at `(k, q)`, `k` the row's number. -/
theorem rowRead (w : S3x1024.Idx → α) (o : ℕ) (k : Fin 3) (hk : k.val = o) (hs : S3x1024.Slices ![o, 0] S1x1024)
    (hb : S1x1024.Broadcasts S2048x1024) (r : Fin 2048) (q : Fin 1024) :
    broadcastTo S2048x1024 (extractStridedSlice S1x1024 ![o, 0] w hs) hb (ix2 r q) = w (ix2 k q) :=
  (broadcastTo_1b_ab_apply _ hb r q).trans
    (slice2_axis0_apply o w hs (0 : Fin 1) q k (by show k.val = o + 0; rw [hk, Nat.add_zero]))

/-- A vector of 2048 numbers, kept as a `[2048, 1]` column and broadcast along the rows of the tile, reads at `(r, q)`
    its entry `r`. -/
theorem colVecRead (z : S2048.Idx → α) (hc : S2048.ShapeCasts S2048x1) (hb : S2048x1.Broadcasts S2048x1024)
    (r : Fin 2048) (q : Fin 1024) :
    broadcastTo S2048x1024 (shapeCast S2048x1 z hc) hb (ix2 r q) = z (ix1 r) :=
  (broadcastTo_a1_ab_apply _ hb r q).trans (shapeCast_a_a1_apply z hc r (0 : Fin 1))

/-- A vector of 1024 numbers, kept as a `[1, 1024]` row and broadcast down the columns of the tile, reads at `(r, q)`
    its entry `q`. -/
theorem rowVecRead (z : S1024.Idx → α) (hc : S1024.ShapeCasts S1x1024) (hb : S1x1024.Broadcasts S2048x1024)
    (r : Fin 2048) (q : Fin 1024) :
    broadcastTo S2048x1024 (shapeCast S1x1024 z hc) hb (ix2 r q) = z (ix1 q) :=
  (broadcastTo_1b_ab_apply _ hb r q).trans (shapeCast_a_1a_apply z hc (0 : Fin 1) q)

end Reads

/-- The sum over the 3 columns of a `[2048, 3]` array, at row `r`. -/
theorem rowSum_apply (w : FVec Ideal S2048x3 .f32) (hφ : FKind.Formats .f32)
    (hacc : (0x00000000#32 : BitVec 32) = FKind.add.neutral .f32 hφ) (r : Fin 2048) :
    multiReduction .add [1] S2048 w 0x00000000#32 reduces_S2048x3_S2048 hφ hacc (ix1 r) = ∑ d : Fin 3, w (ix2 r d) := by
  refine (Ideal.multiReduction_add_single w _ reduces_S2048x3_S2048 hφ hacc (ix1 r)).trans ?_
  show ∑ d : Fin 3, w (reduces_S2048x3_S2048.lift (ix1 r) d) = _
  refine Finset.sum_congr rfl fun d _ => congrArg w (funext fun c => ?_)
  match c with
  | ⟨0, _⟩ => exact Fin.ext rfl
  | ⟨1, _⟩ => exact Fin.ext rfl

/-- The sum over the 3 rows of a `[3, 1024]` array, at column `q`. -/
theorem colSum_apply (w : FVec Ideal S3x1024 .f32) (hφ : FKind.Formats .f32)
    (hacc : (0x00000000#32 : BitVec 32) = FKind.add.neutral .f32 hφ) (q : Fin 1024) :
    multiReduction .add [0] S1024 w 0x00000000#32 reduces_S3x1024_S1024 hφ hacc (ix1 q) = ∑ d : Fin 3, w (ix2 d q) := by
  refine (Ideal.multiReduction_add_single w _ reduces_S3x1024_S1024 hφ hacc (ix1 q)).trans ?_
  show ∑ d : Fin 3, w (reduces_S3x1024_S1024.lift (ix1 q) d) = _
  refine Finset.sum_congr rfl fun d _ => congrArg w (funext fun c => ?_)
  match c with
  | ⟨0, _⟩ => exact Fin.ext rfl
  | ⟨1, _⟩ => exact Fin.ext rfl

/-- The squared distance of row `r` of a block of 2048 points (coordinates along the last axis) and column `q` of a
    block of 1024 points given TRANSPOSED (coordinates along the middle axis), in the arrangement the body computes:
    the two squared norms added, then the three products with the factor −2 folded into the row's coordinates. -/
def tileOf (x0 : S1x2048x3.Idx → EReal) (x1 : S1x3x1024.Idx → EReal) (r : Fin 2048) (q : Fin 1024) : EReal :=
  ((∑ d : Fin 3, x0 (ix3 (0 : Fin 1) r d) * x0 (ix3 (0 : Fin 1) r d))
      + (∑ d : Fin 3, x1 (ix3 (0 : Fin 1) d q) * x1 (ix3 (0 : Fin 1) d q)))
    + ((((((-2 : ℝ) : EReal) * x0 (ix3 (0 : Fin 1) r (0 : Fin 3))) * x1 (ix3 (0 : Fin 1) (0 : Fin 3) q)
          + (((-2 : ℝ) : EReal) * x0 (ix3 (0 : Fin 1) r (1 : Fin 3))) * x1 (ix3 (0 : Fin 1) (1 : Fin 3) q))
        + (((-2 : ℝ) : EReal) * x0 (ix3 (0 : Fin 1) r (2 : Fin 3))) * x1 (ix3 (0 : Fin 1) (2 : Fin 3) q)))

/-- Sums of equal terms are equal. -/
theorem add_eq_add {a b c d : EReal} (h₁ : a = c) (h₂ : b = d) : a + b = c + d := by rw [h₁, h₂]

/-- The distance tile at row `r` and column `q` is the squared distance in the arrangement of `tileOf`. -/
theorem pay7_apply (x0 : Vec Ideal S1x2048x3 .f32) (x1 : Vec Ideal S1x3x1024 .f32) (r : Fin 2048) (q : Fin 1024) :
    k0_pay7 (F := Ideal) x0 x1 (ix2 r q) = tileOf x0 x1 r q := by
  unfold k0_pay7 tileOf
  simp only [addf_apply, mulf_apply]
  refine add_eq_add (add_eq_add ?_ ?_) ?_
  · refine (colVecRead _ _ _ r q).trans ((rowSum_apply _ _ _ r).trans ?_)
    simp only [mulf_apply, shapeCast_1ab_ab_apply]
  · refine (rowVecRead _ _ _ r q).trans ((colSum_apply _ _ _ q).trans ?_)
    simp only [mulf_apply, shapeCast_1ab_ab_apply]
  · rw [colRead _ 0 (0 : Fin 3) rfl, colRead _ 1 (1 : Fin 3) rfl, colRead _ 2 (2 : Fin 3) rfl,
      rowRead _ 0 (0 : Fin 3) rfl, rowRead _ 1 (1 : Fin 3) rfl, rowRead _ 2 (2 : Fin 3) rfl]
    simp only [mulf_apply, broadcast_apply, shapeCast_1ab_ab_apply]
    have hc : FloatOps.ofBits (F := Ideal) .f32 0xC0000000#32 = ((-2 : ℝ) : EReal) := neg_two_f32
    rw [hc]

/-- The running minimum over the columns: at row `r`, the minimum of the old entry and of the tile's row `r`. -/
theorem pay1_apply (T : FVec Ideal S2048x1024 .f32) (v : Vec Ideal S2048 .f32) (r : Fin 2048) :
    k0_pay1 (F := Ideal) T v (ix1 r)
      = min (v (ix1 r)) ((Finset.univ : Finset (Fin 1024)).fold min ⊤ (fun q => T (ix2 r q))) := by
  unfold k0_pay1
  rw [shapeCast_self]
  refine congrArg (min (v (ix1 r))) ?_
  refine (multiReduction_minimumf_eq_fold (F := Ideal) T _ reduces_S2048x1024_S2048 _ _ (ix1 r)).trans ?_
  refine (reduces_S2048x1024_S2048.fold_filter_drop_single _ _ T (ix1 r)).trans ?_
  -- the index of row r with the column q put back is (r, q)
  have e : (T ∘ reduces_S2048x1024_S2048.lift (ix1 r)) = fun q : Fin 1024 => T (ix2 r q) := by
    funext q
    refine congrArg T (funext fun c => ?_)
    match c with
    | ⟨0, _⟩ => exact Fin.ext rfl
    | ⟨1, _⟩ => exact Fin.ext rfl
  show Finset.fold min (Ideal.ofBits .f32 0x7F800000#32) (T ∘ reduces_S2048x1024_S2048.lift (ix1 r))
      (Finset.univ : Finset (Fin 1024)) = _
  rw [e, top_f32]
  rfl

/-- The running minimum over the rows: at column `q`, the minimum of the old entry and of the tile's column `q`. -/
theorem pay2_apply (T : FVec Ideal S2048x1024 .f32) (v : Vec Ideal S1024 .f32) (q : Fin 1024) :
    k0_pay2 (F := Ideal) T v (ix1 q)
      = min (v (ix1 q)) ((Finset.univ : Finset (Fin 2048)).fold min ⊤ (fun r => T (ix2 r q))) := by
  unfold k0_pay2
  rw [shapeCast_self]
  refine congrArg (min (v (ix1 q))) ?_
  refine (multiReduction_minimumf_eq_fold (F := Ideal) T _ reduces_S2048x1024_S1024 _ _ (ix1 q)).trans ?_
  refine (reduces_S2048x1024_S1024.fold_filter_drop_single _ _ T (ix1 q)).trans ?_
  -- the index of column q with the row r put back is (r, q)
  have e : (T ∘ reduces_S2048x1024_S1024.lift (ix1 q)) = fun r : Fin 2048 => T (ix2 r q) := by
    funext r
    refine congrArg T (funext fun c => ?_)
    match c with
    | ⟨0, _⟩ => exact Fin.ext rfl
    | ⟨1, _⟩ => exact Fin.ext rfl
  show Finset.fold min (Ideal.ofBits .f32 0x7F800000#32) (T ∘ reduces_S2048x1024_S1024.lift (ix1 q))
      (Finset.univ : Finset (Fin 2048)) = _
  rw [e, top_f32]
  rfl

/-- A vector of 2048 numbers read as a `[1, 1, 2048]` array: entry `(0, 0, i)` is entry `i`. -/
theorem pay3_apply (v : Vec Ideal S2048 .f32) (y : S1x1x2048.Idx) :
    k0_pay3 (F := Ideal) v y = v (ix1 ⟨(y 2).val, (y 2).isLt⟩) := by
  unfold k0_pay3
  refine (shapeCast_apply v _ y (ix1 ⟨(y 2).val, (y 2).isLt⟩) ?_)
  rw [Shape.rowMajor_val_one, Shape.rowMajor_val_three]
  have h0 : (y 0).val = 0 := by have := (y 0).isLt; simp at this; omega
  have h1 : (y 1).val = 0 := by have := (y 1).isLt; simp at this; omega
  show (y 2).val = ((y 0).val * 1 + (y 1).val) * 2048 + (y 2).val
  omega

/-- A vector of 8192 numbers read as a `[1, 1, 8192]` array: entry `(0, 0, i)` is entry `i`. -/
theorem pay4_apply (v : Vec Ideal S8192 .f32) (y : S1x1x8192.Idx) :
    k0_pay4 (F := Ideal) v y = v (ix1 ⟨(y 2).val, (y 2).isLt⟩) := by
  unfold k0_pay4
  refine (shapeCast_apply v _ y (ix1 ⟨(y 2).val, (y 2).isLt⟩) ?_)
  rw [Shape.rowMajor_val_one, Shape.rowMajor_val_three]
  have h0 : (y 0).val = 0 := by have := (y 0).isLt; simp at this; omega
  have h1 : (y 1).val = 0 := by have := (y 1).isLt; simp at this; omega
  show (y 2).val = ((y 0).val * 1 + (y 1).val) * 8192 + (y 2).val
  omega

/-- The constant vector of 2048 entries +∞. -/
theorem pay5_apply (y : S2048.Idx) : k0_pay5 (F := Ideal) y = ⊤ := by
  unfold k0_pay5
  rw [shapeCast_self]
  exact top_f32

/-- The constant vector of 8192 entries +∞. -/
theorem pay6_apply (y : S8192.Idx) : k0_pay6 (F := Ideal) y = ⊤ := by
  unfold k0_pay6
  rw [shapeCast_self]
  exact top_f32

end Cert.KernelIdeal.Acc
-- ==== Proof.MinOf.lean ====
/-
  Minima over index sets given by predicates. `IsMinOf a P f` says that the extended real `a` is the minimum of `f`
  over the indices satisfying `P` (+∞ when none does), stated through its lower bounds: `c ≤ a` exactly when `c ≤ f x`
  for every such `x`. A running minimum over a growing index set is then carried by three facts: +∞ is the minimum over
  nothing, the minimum of two such minima is the minimum over the union, and a minimum is determined by its index set.
  The fold of `min` from +∞ over a block of `K` consecutive indices starting at `lo` is the minimum over that block.
-/
import proofs.«131806_j70927089926224_2_alg».proof.Proof.Spec

noncomputable section

namespace Cert.Chamfer

/-- `a` is the minimum of `f` over the indices satisfying `P` (+∞ when none does), stated by its lower bounds. -/
def IsMinOf {ι : Type} (a : EReal) (P : ι → Prop) (f : ι → EReal) : Prop :=
  ∀ c : EReal, c ≤ a ↔ ∀ x, P x → c ≤ f x

/-- +∞ is the minimum over no index. -/
theorem isMinOf_top {ι : Type} (P : ι → Prop) (f : ι → EReal) (h : ∀ x, ¬P x) : IsMinOf ⊤ P f :=
  fun _ => ⟨fun _ x hx => absurd hx (h x), fun _ => le_top⟩

/-- The minimum of two minima is the minimum over the union of the index sets. -/
theorem IsMinOf.min {ι : Type} {a b : EReal} {P Q : ι → Prop} {f : ι → EReal} (ha : IsMinOf a P f)
    (hb : IsMinOf b Q f) : IsMinOf (min a b) (fun x => P x ∨ Q x) f := fun c => by
  rw [le_min_iff, ha c, hb c]
  exact ⟨fun h x hx => hx.elim (h.1 x) (h.2 x), fun h => ⟨fun x hx => h x (.inl hx), fun x hx => h x (.inr hx)⟩⟩

/-- The index set may be restated. -/
theorem IsMinOf.congr {ι : Type} {a : EReal} {P Q : ι → Prop} {f : ι → EReal} (h : IsMinOf a P f)
    (hPQ : ∀ x, P x ↔ Q x) : IsMinOf a Q f :=
  fun c => (h c).trans ⟨fun g x hx => g x ((hPQ x).2 hx), fun g x hx => g x ((hPQ x).1 hx)⟩

/-- The function may be restated on the index set. -/
theorem IsMinOf.congr_fun {ι : Type} {a : EReal} {P : ι → Prop} {f g : ι → EReal} (h : IsMinOf a P f)
    (hfg : ∀ x, P x → f x = g x) : IsMinOf a P g :=
  fun c => (h c).trans ⟨fun k x hx => hfg x hx ▸ k x hx, fun k x hx => (hfg x hx).symm ▸ k x hx⟩

/-- A minimum is determined by its index set and function. -/
theorem IsMinOf.eq {ι : Type} {a b : EReal} {P : ι → Prop} {f : ι → EReal} (ha : IsMinOf a P f)
    (hb : IsMinOf b P f) : a = b :=
  le_antisymm ((hb a).2 ((ha a).1 le_rfl)) ((ha b).2 ((hb b).1 le_rfl))

/-- The fold of `min` from +∞ over a finite set is the minimum over its members. -/
theorem isMinOf_minOver {ι : Type} (s : Finset ι) (f : ι → EReal) : IsMinOf (minOver s f) (fun x => x ∈ s) f :=
  fun c => le_minOver s f c

/-- A minimum over every index of a finite type is the fold over the whole type. -/
theorem IsMinOf.eq_minOver_univ {ι : Type} [Fintype ι] {a : EReal} {P : ι → Prop} {f : ι → EReal}
    (h : IsMinOf a P f) (hP : ∀ x, P x) : a = minOver Finset.univ f :=
  (h.congr fun x => ⟨fun _ => Finset.mem_univ x, fun _ => hP x⟩).eq (isMinOf_minOver _ _)

/-- The fold of `min` from +∞ over `K` values that are `f` at the consecutive indices `lo, lo + 1, …` is the minimum of
    `f` over that block. -/
theorem isMinOf_fold_block {N K : ℕ} (lo : ℕ) (hlo : lo + K ≤ N) (f : Fin N → EReal) (g : Fin K → EReal)
    (hg : ∀ (k : Fin K) (x : Fin N), x.val = lo + k.val → g k = f x) :
    IsMinOf ((Finset.univ : Finset (Fin K)).fold min ⊤ g) (fun x : Fin N => lo ≤ x.val ∧ x.val < lo + K) f :=
  fun c => by
    rw [Finset.le_fold_min]
    constructor
    · rintro ⟨-, h⟩ x ⟨h1, h2⟩
      have hk : x.val - lo < K := by omega
      have := h ⟨x.val - lo, hk⟩ (Finset.mem_univ _)
      rwa [hg ⟨x.val - lo, hk⟩ x (by show x.val = lo + (x.val - lo); omega)] at this
    · intro h
      refine ⟨le_top, fun k _ => ?_⟩
      have hx : lo + k.val < N := by have := k.isLt; omega
      rw [hg k ⟨lo + k.val, hx⟩ rfl]
      exact h ⟨lo + k.val, hx⟩ ⟨Nat.le_add_right _ _, by show lo + k.val < lo + K; have := k.isLt; omega⟩

end Cert.Chamfer

end
-- ==== Proof.KernelSteps.lean ====
/-
  One step of the two running minima, element by element. After grid point t the first scratch holds, at row r, the
  minimum of what it held before (+∞ at the first column tile of a row tile) and the minimum of the point's tile along
  row r; the second scratch holds, at a column of the point's column tile, the minimum of what it held before (+∞ at
  the first point of a batch) and the minimum of the tile down that column, and is unchanged elsewhere. The tile's
  entry (r, q) is the squared distance between row r of the point's row tile and column q of its column tile, so its
  row and column minima are minima of the squared distance over a block of 1024 columns or 2048 rows. At the last
  column tile the first output's block is the first scratch, at the last point of a batch the second output's block is
  the second scratch.
-/
import proofs.«131806_j70927089926224_2_alg».proof.Proof.KernelBlocks
import proofs.«131806_j70927089926224_2_alg».proof.Proof.KernelPieces
import proofs.«131806_j70927089926224_2_alg».proof.Proof.KernelPayloads
import proofs.«131806_j70927089926224_2_alg».proof.Proof.MinOf

noncomputable section

namespace Cert.KernelIdeal.Acc

open Cert.KernelIdeal Cert.KernelIdeal.Gen Cert.Chamfer
open Idealize.ShloMosaic Idealize.ShloMosaic.TcCoe Idealize.SL.Sem Idealize.ShloMosaic.ValueIdx

variable (m : (ℓ : Loc nD τ sig) → Buf (Elt Ideal) ℓ) (c : Dev nD)

/-- The tile of squared distances the body forms at grid point `t`. -/
def tile (t : Fin cfg0.N) : FVec Ideal S2048x1024 .f32 :=
  k0_pay7 (F := Ideal) (iblk (F := Ideal) m c 0 t) (iblk (F := Ideal) m c 1 t)

/-- Its entry (r, q) is the squared distance between row r of the row tile and column q of the column tile. -/
theorem tile_apply (t : Fin cfg0.N) (r : Fin 2048) (q : Fin 1024) :
    tile m c t (ix2 r q) = d2K (X m c) (Y m c) (batchOf t) (rowOf t r) (colOf t q) := by
  unfold tile
  rw [pay7_apply]
  unfold tileOf d2K Cert.Chamfer.sq
  simp only [iblk0_apply, iblk1_apply]

/-- The minimum of the tile along row `r`. -/
def tileRowMin (t : Fin cfg0.N) (r : Fin 2048) : EReal :=
  (Finset.univ : Finset (Fin 1024)).fold min ⊤ (fun q => tile m c t (ix2 r q))

/-- The minimum of the tile down column `q`. -/
def tileColMin (t : Fin cfg0.N) (q : Fin 1024) : EReal :=
  (Finset.univ : Finset (Fin 2048)).fold min ⊤ (fun r => tile m c t (ix2 r q))

/-- The row minimum is the minimum of the squared distance over the columns of the point's column tile. -/
theorem tileRowMin_isMinOf (t : Fin cfg0.N) (r : Fin 2048) :
    IsMinOf (tileRowMin m c t r) (fun q : Fin 8192 => t.val % 8 * 1024 ≤ q.val ∧ q.val < t.val % 8 * 1024 + 1024)
      (fun q => d2K (X m c) (Y m c) (batchOf t) (rowOf t r) q) :=
  isMinOf_fold_block (t.val % 8 * 1024) (by omega) _ _ fun k x hx => by
    rw [tile_apply]
    exact congrArg _ (Fin.ext hx.symm)

/-- The column minimum is the minimum of the squared distance over the rows of the point's row tile. -/
theorem tileColMin_isMinOf (t : Fin cfg0.N) (q : Fin 1024) :
    IsMinOf (tileColMin m c t q) (fun n : Fin 8192 => t.val / 8 % 4 * 2048 ≤ n.val ∧ n.val < t.val / 8 % 4 * 2048 + 2048)
      (fun n => d2K (X m c) (Y m c) (batchOf t) n (colOf t q)) :=
  isMinOf_fold_block (t.val / 8 % 4 * 2048) (by omega) _ _ fun k x hx => by
    rw [tile_apply]
    exact congrArg (fun n => d2K (X m c) (Y m c) (batchOf t) n (colOf t q)) (Fin.ext hx.symm)

/-- The slice's offset, which the body computes as a machine word, is 1024 times the column-tile coordinate. -/
theorem off_closed (t : Fin cfg0.N) : k0_off1 (grid0.coords t) = ![t.val % 8 * 1024] := by
  have h : ∀ t : Fin grid0.N, k0_off1 (grid0.coords t) 0 = t.val % 8 * 1024 := by decide +kernel
  funext a
  fin_cases a
  exact h t

/-- A load of 1024 consecutive entries at an offset, read at position `q`, is the entry at offset + q. -/
theorem ld_slice (v : Vec Ideal S8192 .f32) (off : Fin 1 → ℕ) (inb : ∀ a, off a + S1024.size a ≤ S8192.size a)
    (q : Fin 1024) (n : Fin 8192) (hn : n.val = off 0 + q.val) :
    View.ld v (Rect.unit (s := S8192) off S1024.size inb) (ix1 q) = v (ix1 n) := by
  show v ((Rect.unit (s := S8192) off S1024.size inb).emb (ix1 q)) = v (ix1 n)
  refine congrArg v (funext fun a => Fin.ext ?_)
  fin_cases a
  show off 0 + 1 * q.val = n.val
  omega

/-! ## The first scratch -/

/-- Case A: from +∞. -/
theorem step0_A (t : Fin cfg0.N) (h0 : t.val % 8 = 0) (h1 : t.val % 32 = 0) (h2 : ¬t.val % 8 = 7) (h3 : ¬t.val % 32 = 31) (r : Fin 2048) :
    (outsAt0 (F := Ideal) m c t.val t.isLt).2.2.1 (ix1 r) = min ⊤ (tileRowMin m c t r) := by
  rw [outsAt0_A m c t h0 h1 h2 h3]
  dsimp only
  rw [s0_A, pay1_apply, pay5_apply]
  rfl

/-- Case D: from +∞. -/
theorem step0_D (t : Fin cfg0.N) (h0 : t.val % 8 = 0) (h1 : ¬t.val % 32 = 0) (h2 : ¬t.val % 8 = 7) (h3 : ¬t.val % 32 = 31) (r : Fin 2048) :
    (outsAt0 (F := Ideal) m c t.val t.isLt).2.2.1 (ix1 r) = min ⊤ (tileRowMin m c t r) := by
  rw [outsAt0_D m c t h0 h1 h2 h3]
  dsimp only
  rw [s0_D, pay1_apply, pay5_apply]
  rfl

/-- Case B: from what the point before left. -/
theorem step0_B (t : Fin cfg0.N) (h0 : ¬t.val % 8 = 0) (h1 : ¬t.val % 32 = 0) (h2 : ¬t.val % 8 = 7) (h3 : ¬t.val % 32 = 31) (r : Fin 2048) :
    (outsAt0 (F := Ideal) m c t.val t.isLt).2.2.1 (ix1 r) = min ((outsAt0 (F := Ideal) m c (t.val - 1) (Nat.lt_of_le_of_lt (Nat.sub_le _ _) t.isLt)).2.2.1 (ix1 r)) (tileRowMin m c t r) := by
  rw [outsAt0_B m c t h0 h1 h2 h3]
  dsimp only
  rw [s0_B, pay1_apply]
  rfl

/-- Case C: from what the point before left. -/
theorem step0_C (t : Fin cfg0.N) (h0 : ¬t.val % 8 = 0) (h1 : ¬t.val % 32 = 0) (h2 : t.val % 8 = 7) (h3 : ¬t.val % 32 = 31) (r : Fin 2048) :
    (outsAt0 (F := Ideal) m c t.val t.isLt).2.2.1 (ix1 r) = min ((outsAt0 (F := Ideal) m c (t.val - 1) (Nat.lt_of_le_of_lt (Nat.sub_le _ _) t.isLt)).2.2.1 (ix1 r)) (tileRowMin m c t r) := by
  rw [outsAt0_C m c t h0 h1 h2 h3]
  dsimp only
  rw [s0_C, pay1_apply]
  rfl

/-- Case E: from what the point before left. -/
theorem step0_E (t : Fin cfg0.N) (h0 : ¬t.val % 8 = 0) (h1 : ¬t.val % 32 = 0) (h2 : t.val % 8 = 7) (h3 : t.val % 32 = 31) (r : Fin 2048) :
    (outsAt0 (F := Ideal) m c t.val t.isLt).2.2.1 (ix1 r) = min ((outsAt0 (F := Ideal) m c (t.val - 1) (Nat.lt_of_le_of_lt (Nat.sub_le _ _) t.isLt)).2.2.1 (ix1 r)) (tileRowMin m c t r) := by
  rw [outsAt0_E m c t h0 h1 h2 h3]
  dsimp only
  rw [s0_E, pay1_apply]
  rfl

/-! ## The first output -/

/-- Case C: the first output's block is the first scratch as this point leaves it. -/
theorem out2_C (t : Fin cfg0.N) (h0 : ¬t.val % 8 = 0) (h1 : ¬t.val % 32 = 0) (h2 : t.val % 8 = 7) (h3 : ¬t.val % 32 = 31) (y : S1x1x2048.Idx) :
    (outsAt0 (F := Ideal) m c t.val t.isLt).1 y = (outsAt0 (F := Ideal) m c t.val t.isLt).2.2.1 (ix1 ⟨(y 2).val, (y 2).isLt⟩) := by
  rw [outsAt0_C m c t h0 h1 h2 h3]
  dsimp only
  rw [o2_C, s0_C, pay3_apply]

/-- Case E: the first output's block is the first scratch as this point leaves it. -/
theorem out2_E (t : Fin cfg0.N) (h0 : ¬t.val % 8 = 0) (h1 : ¬t.val % 32 = 0) (h2 : t.val % 8 = 7) (h3 : t.val % 32 = 31) (y : S1x1x2048.Idx) :
    (outsAt0 (F := Ideal) m c t.val t.isLt).1 y = (outsAt0 (F := Ideal) m c t.val t.isLt).2.2.1 (ix1 ⟨(y 2).val, (y 2).isLt⟩) := by
  rw [outsAt0_E m c t h0 h1 h2 h3]
  dsimp only
  rw [o2_E, s0_E, pay3_apply]

/-! ## The second scratch -/

/-- Case A, in the point's column tile: from +∞. -/
theorem step1_hit_A (t : Fin cfg0.N) (h0 : t.val % 8 = 0) (h1 : t.val % 32 = 0) (h2 : ¬t.val % 8 = 7) (h3 : ¬t.val % 32 = 31) (q : Fin 1024) :
    (outsAt0 (F := Ideal) m c t.val t.isLt).2.2.2 (ix1 (colOf t q)) = min ⊤ (tileColMin m c t q) := by
  rw [outsAt0_A m c t h0 h1 h2 h3]
  dsimp only
  rw [s1_hit_A (F := Ideal) (off' := ![t.val % 8 * 1024]) (heq := off_closed t) (y := ix1 (colOf t q)) (x := ix1 q)
    (hx := fun a => by fin_cases a; rfl), pay2_apply]
  refine congrArg (fun v => min v _) ?_
  show k0_pay6 (F := Ideal) _ = ⊤
  exact pay6_apply _

/-- Case A, outside the point's column tile: +∞. -/
theorem step1_miss_A (t : Fin cfg0.N) (h0 : t.val % 8 = 0) (h1 : t.val % 32 = 0) (h2 : ¬t.val % 8 = 7) (h3 : ¬t.val % 32 = 31) (q : Fin 8192)
    (hq : q.val < t.val % 8 * 1024 ∨ t.val % 8 * 1024 + 1024 ≤ q.val) :
    (outsAt0 (F := Ideal) m c t.val t.isLt).2.2.2 (ix1 q) = ⊤ := by
  rw [outsAt0_A m c t h0 h1 h2 h3]
  dsimp only
  rw [s1_miss_A (F := Ideal) (off' := ![t.val % 8 * 1024]) (heq := off_closed t) (y := ix1 q) (hy := hq)]
  exact pay6_apply _

/-- Case B, in the point's column tile: from what the point before left there. -/
theorem step1_hit_B (t : Fin cfg0.N) (h0 : ¬t.val % 8 = 0) (h1 : ¬t.val % 32 = 0) (h2 : ¬t.val % 8 = 7) (h3 : ¬t.val % 32 = 31) (q : Fin 1024) :
    (outsAt0 (F := Ideal) m c t.val t.isLt).2.2.2 (ix1 (colOf t q)) = min ((outsAt0 (F := Ideal) m c (t.val - 1) (Nat.lt_of_le_of_lt (Nat.sub_le _ _) t.isLt)).2.2.2 (ix1 (colOf t q))) (tileColMin m c t q) := by
  rw [outsAt0_B m c t h0 h1 h2 h3]
  dsimp only
  rw [s1_hit_B (F := Ideal) (off' := ![t.val % 8 * 1024]) (heq := off_closed t) (y := ix1 (colOf t q)) (x := ix1 q)
    (hx := fun a => by fin_cases a; rfl), pay2_apply,
    ld_slice _ _ _ q (colOf t q) (by rw [off_closed t]; rfl)]
  rfl

/-- Case B, outside the point's column tile: unchanged. -/
theorem step1_miss_B (t : Fin cfg0.N) (h0 : ¬t.val % 8 = 0) (h1 : ¬t.val % 32 = 0) (h2 : ¬t.val % 8 = 7) (h3 : ¬t.val % 32 = 31) (q : Fin 8192)
    (hq : q.val < t.val % 8 * 1024 ∨ t.val % 8 * 1024 + 1024 ≤ q.val) :
    (outsAt0 (F := Ideal) m c t.val t.isLt).2.2.2 (ix1 q) = (outsAt0 (F := Ideal) m c (t.val - 1) (Nat.lt_of_le_of_lt (Nat.sub_le _ _) t.isLt)).2.2.2 (ix1 q) := by
  rw [outsAt0_B m c t h0 h1 h2 h3]
  dsimp only
  rw [s1_miss_B (F := Ideal) (off' := ![t.val % 8 * 1024]) (heq := off_closed t) (y := ix1 q) (hy := hq)]

/-- Case C, in the point's column tile: from what the point before left there. -/
theorem step1_hit_C (t : Fin cfg0.N) (h0 : ¬t.val % 8 = 0) (h1 : ¬t.val % 32 = 0) (h2 : t.val % 8 = 7) (h3 : ¬t.val % 32 = 31) (q : Fin 1024) :
    (outsAt0 (F := Ideal) m c t.val t.isLt).2.2.2 (ix1 (colOf t q)) = min ((outsAt0 (F := Ideal) m c (t.val - 1) (Nat.lt_of_le_of_lt (Nat.sub_le _ _) t.isLt)).2.2.2 (ix1 (colOf t q))) (tileColMin m c t q) := by
  rw [outsAt0_C m c t h0 h1 h2 h3]
  dsimp only
  rw [s1_hit_C (F := Ideal) (off' := ![t.val % 8 * 1024]) (heq := off_closed t) (y := ix1 (colOf t q)) (x := ix1 q)
    (hx := fun a => by fin_cases a; rfl), pay2_apply,
    ld_slice _ _ _ q (colOf t q) (by rw [off_closed t]; rfl)]
  rfl

/-- Case C, outside the point's column tile: unchanged. -/
theorem step1_miss_C (t : Fin cfg0.N) (h0 : ¬t.val % 8 = 0) (h1 : ¬t.val % 32 = 0) (h2 : t.val % 8 = 7) (h3 : ¬t.val % 32 = 31) (q : Fin 8192)
    (hq : q.val < t.val % 8 * 1024 ∨ t.val % 8 * 1024 + 1024 ≤ q.val) :
    (outsAt0 (F := Ideal) m c t.val t.isLt).2.2.2 (ix1 q) = (outsAt0 (F := Ideal) m c (t.val - 1) (Nat.lt_of_le_of_lt (Nat.sub_le _ _) t.isLt)).2.2.2 (ix1 q) := by
  rw [outsAt0_C m c t h0 h1 h2 h3]
  dsimp only
  rw [s1_miss_C (F := Ideal) (off' := ![t.val % 8 * 1024]) (heq := off_closed t) (y := ix1 q) (hy := hq)]

/-- Case D, in the point's column tile: from what the point before left there. -/
theorem step1_hit_D (t : Fin cfg0.N) (h0 : t.val % 8 = 0) (h1 : ¬t.val % 32 = 0) (h2 : ¬t.val % 8 = 7) (h3 : ¬t.val % 32 = 31) (q : Fin 1024) :
    (outsAt0 (F := Ideal) m c t.val t.isLt).2.2.2 (ix1 (colOf t q)) = min ((outsAt0 (F := Ideal) m c (t.val - 1) (Nat.lt_of_le_of_lt (Nat.sub_le _ _) t.isLt)).2.2.2 (ix1 (colOf t q))) (tileColMin m c t q) := by
  rw [outsAt0_D m c t h0 h1 h2 h3]
  dsimp only
  rw [s1_hit_D (F := Ideal) (off' := ![t.val % 8 * 1024]) (heq := off_closed t) (y := ix1 (colOf t q)) (x := ix1 q)
    (hx := fun a => by fin_cases a; rfl), pay2_apply,
    ld_slice _ _ _ q (colOf t q) (by rw [off_closed t]; rfl)]
  rfl

/-- Case D, outside the point's column tile: unchanged. -/
theorem step1_miss_D (t : Fin cfg0.N) (h0 : t.val % 8 = 0) (h1 : ¬t.val % 32 = 0) (h2 : ¬t.val % 8 = 7) (h3 : ¬t.val % 32 = 31) (q : Fin 8192)
    (hq : q.val < t.val % 8 * 1024 ∨ t.val % 8 * 1024 + 1024 ≤ q.val) :
    (outsAt0 (F := Ideal) m c t.val t.isLt).2.2.2 (ix1 q) = (outsAt0 (F := Ideal) m c (t.val - 1) (Nat.lt_of_le_of_lt (Nat.sub_le _ _) t.isLt)).2.2.2 (ix1 q) := by
  rw [outsAt0_D m c t h0 h1 h2 h3]
  dsimp only
  rw [s1_miss_D (F := Ideal) (off' := ![t.val % 8 * 1024]) (heq := off_closed t) (y := ix1 q) (hy := hq)]

/-- Case E, in the point's column tile: from what the point before left there. -/
theorem step1_hit_E (t : Fin cfg0.N) (h0 : ¬t.val % 8 = 0) (h1 : ¬t.val % 32 = 0) (h2 : t.val % 8 = 7) (h3 : t.val % 32 = 31) (q : Fin 1024) :
    (outsAt0 (F := Ideal) m c t.val t.isLt).2.2.2 (ix1 (colOf t q)) = min ((outsAt0 (F := Ideal) m c (t.val - 1) (Nat.lt_of_le_of_lt (Nat.sub_le _ _) t.isLt)).2.2.2 (ix1 (colOf t q))) (tileColMin m c t q) := by
  rw [outsAt0_E m c t h0 h1 h2 h3]
  dsimp only
  rw [s1_hit_E (F := Ideal) (off' := ![t.val % 8 * 1024]) (heq := off_closed t) (y := ix1 (colOf t q)) (x := ix1 q)
    (hx := fun a => by fin_cases a; rfl), pay2_apply,
    ld_slice _ _ _ q (colOf t q) (by rw [off_closed t]; rfl)]
  rfl

/-- Case E, outside the point's column tile: unchanged. -/
theorem step1_miss_E (t : Fin cfg0.N) (h0 : ¬t.val % 8 = 0) (h1 : ¬t.val % 32 = 0) (h2 : t.val % 8 = 7) (h3 : t.val % 32 = 31) (q : Fin 8192)
    (hq : q.val < t.val % 8 * 1024 ∨ t.val % 8 * 1024 + 1024 ≤ q.val) :
    (outsAt0 (F := Ideal) m c t.val t.isLt).2.2.2 (ix1 q) = (outsAt0 (F := Ideal) m c (t.val - 1) (Nat.lt_of_le_of_lt (Nat.sub_le _ _) t.isLt)).2.2.2 (ix1 q) := by
  rw [outsAt0_E m c t h0 h1 h2 h3]
  dsimp only
  rw [s1_miss_E (F := Ideal) (off' := ![t.val % 8 * 1024]) (heq := off_closed t) (y := ix1 q) (hy := hq)]

/-! ## The second output -/

/-- Case E: the second output's block is the second scratch as this point leaves it. -/
theorem out3_E (t : Fin cfg0.N) (h0 : ¬t.val % 8 = 0) (h1 : ¬t.val % 32 = 0) (h2 : t.val % 8 = 7) (h3 : t.val % 32 = 31) (y : S1x1x8192.Idx) :
    (outsAt0 (F := Ideal) m c t.val t.isLt).2.1 y = (outsAt0 (F := Ideal) m c t.val t.isLt).2.2.2 (ix1 ⟨(y 2).val, (y 2).isLt⟩) := by
  rw [outsAt0_E m c t h0 h1 h2 h3]
  dsimp only
  rw [o3_E, pay4_apply]

end Cert.KernelIdeal.Acc

end
-- ==== Proof.KernelAccum.lean ====
/-
  What the kernel's two running minima hold when they are written out. The grid is 4 batches × 4 row tiles of 2048
  points × 8 column tiles of 1024 points, visited in that order (point t = 32·b + 8·i + j). By induction on the point:
  after point t the first scratch holds, at row r of row tile i, the minimum of the squared distance over the columns
  below 1024·(j + 1) — the column tiles seen so far in this row tile; the second scratch holds, at column q, the
  minimum over the rows below 2048·(i + 1) if q's column tile has been visited in this row tile (q / 1024 ≤ j), and
  below 2048·i otherwise. At the last column tile the first is the minimum over all columns and is written out; at the
  last point of a batch the second is the minimum over all rows and is written out.
-/
import proofs.«131806_j70927089926224_2_alg».proof.Proof.KernelSteps

noncomputable section

namespace Cert.KernelIdeal.Acc

open Cert.KernelIdeal Cert.KernelIdeal.Gen Cert.Chamfer
open Idealize.ShloMosaic Idealize.ShloMosaic.TcCoe Idealize.SL.Sem Idealize.ShloMosaic.ValueIdx

variable (m : (ℓ : Loc nD τ sig) → Buf (Elt Ideal) ℓ) (c : Dev nD)

/-- After point `n` the first scratch is, row by row, the minimum over the columns seen so far in the row tile. -/
def Inv0 (n : ℕ) (h : n < cfg0.N) : Prop :=
  ∀ r : Fin 2048, IsMinOf ((outsAt0 (F := Ideal) m c n h).2.2.1 (ix1 r))
    (fun q : Fin 8192 => q.val < (n % 8 + 1) * 1024)
    (fun q => d2K (X m c) (Y m c) (batchOf ⟨n, h⟩) (rowOf ⟨n, h⟩ r) q)

/-- After point `n` the second scratch is, column by column, the minimum over the rows seen so far in the batch. -/
def Inv1 (n : ℕ) (h : n < cfg0.N) : Prop :=
  ∀ q : Fin 8192, IsMinOf ((outsAt0 (F := Ideal) m c n h).2.2.2 (ix1 q))
    (fun k : Fin 8192 => k.val < (if q.val / 1024 ≤ n % 8 then (n / 8 % 4 + 1) * 2048 else n / 8 % 4 * 2048))
    (fun k => d2K (X m c) (Y m c) (batchOf ⟨n, h⟩) k q)

/-- The point before `t` is a grid point. -/
theorem pred_lt (t : Fin cfg0.N) : t.val - 1 < cfg0.N := Nat.lt_of_le_of_lt (Nat.sub_le _ _) t.isLt

/-- Inside a batch the point before has the same batch. -/
theorem batchOf_pred (t : Fin cfg0.N) (h1 : ¬t.val % 32 = 0) : batchOf ⟨t.val - 1, pred_lt t⟩ = batchOf t :=
  Fin.ext (by show (t.val - 1) / 32 = t.val / 32; omega)

/-- Inside a row tile the point before has the same rows. -/
theorem rowOf_pred (t : Fin cfg0.N) (h0 : ¬t.val % 8 = 0) (r : Fin 2048) : rowOf ⟨t.val - 1, pred_lt t⟩ r = rowOf t r :=
  Fin.ext (by show (t.val - 1) / 8 % 4 * 2048 + r.val = t.val / 8 % 4 * 2048 + r.val; omega)

/-- Every column lies in exactly one column tile: it is column `q'` of the point's tile, or outside it. -/
theorem col_cases (t : Fin cfg0.N) (q : Fin 8192) :
    (∃ q' : Fin 1024, q = colOf t q') ∨ (q.val < t.val % 8 * 1024 ∨ t.val % 8 * 1024 + 1024 ≤ q.val) := by
  by_cases h : t.val % 8 * 1024 ≤ q.val ∧ q.val < t.val % 8 * 1024 + 1024
  · exact .inl ⟨⟨q.val - t.val % 8 * 1024, by omega⟩, Fin.ext (by show q.val = t.val % 8 * 1024 + (q.val - t.val % 8 * 1024); omega)⟩
  · exact .inr (by omega)

/-- Taking the minimum with +∞ changes nothing. -/
theorem isMinOf_top_min {ι : Type} {b : EReal} {Q : ι → Prop} {f : ι → EReal} (hb : IsMinOf b Q f) :
    IsMinOf (min ⊤ b) Q f := by
  rwa [min_top_left]

/-- The first scratch at the first column tile of a row tile. -/
theorem inv0_init (t : Fin cfg0.N) (h0 : t.val % 8 = 0)
    (hstep : ∀ r : Fin 2048, (outsAt0 (F := Ideal) m c t.val t.isLt).2.2.1 (ix1 r) = min ⊤ (tileRowMin m c t r)) :
    Inv0 m c t.val t.isLt := fun r => by
  have hN : t.val < 128 := lt_of_lt_of_eq t.isLt N_0
  rw [hstep r]
  exact (isMinOf_top_min (tileRowMin_isMinOf m c t r)).congr fun q => by
    constructor <;> intro hh <;> (try split_ifs at hh ⊢) <;> omega

/-- The first scratch at a later column tile. -/
theorem inv0_acc (t : Fin cfg0.N) (h0 : ¬t.val % 8 = 0) (ih : Inv0 m c (t.val - 1) (pred_lt t))
    (hstep : ∀ r : Fin 2048, (outsAt0 (F := Ideal) m c t.val t.isLt).2.2.1 (ix1 r)
      = min ((outsAt0 (F := Ideal) m c (t.val - 1) (pred_lt t)).2.2.1 (ix1 r)) (tileRowMin m c t r)) :
    Inv0 m c t.val t.isLt := fun r => by
  have hN : t.val < 128 := lt_of_lt_of_eq t.isLt N_0
  rw [hstep r]
  have hp := ih r
  rw [batchOf_pred t (by omega), rowOf_pred t h0 r] at hp
  exact (hp.min (tileRowMin_isMinOf m c t r)).congr fun q => by
    have hq8 := q.isLt
    constructor <;> intro hh <;> (try split_ifs at hh ⊢) <;> omega

/-- The second scratch at the first point of a batch. -/
theorem inv1_init (t : Fin cfg0.N) (h1 : t.val % 32 = 0)
    (hhit : ∀ q : Fin 1024, (outsAt0 (F := Ideal) m c t.val t.isLt).2.2.2 (ix1 (colOf t q)) = min ⊤ (tileColMin m c t q))
    (hmiss : ∀ q : Fin 8192, (q.val < t.val % 8 * 1024 ∨ t.val % 8 * 1024 + 1024 ≤ q.val) →
      (outsAt0 (F := Ideal) m c t.val t.isLt).2.2.2 (ix1 q) = ⊤) :
    Inv1 m c t.val t.isLt := fun q => by
  have hN : t.val < 128 := lt_of_lt_of_eq t.isLt N_0
  rcases col_cases t q with ⟨q', rfl⟩ | hq
  · rw [hhit q']
    have hc : (colOf t q').val = t.val % 8 * 1024 + q'.val := rfl
    have hq' := q'.isLt
    exact (isMinOf_top_min (tileColMin_isMinOf m c t q')).congr fun k => by
      have hk8 := k.isLt
      constructor <;> intro hh <;> (try split_ifs at hh ⊢) <;> omega
  · rw [hmiss q hq]
    have hq8 := q.isLt
    exact isMinOf_top _ _ fun k => by
      intro hh
      split_ifs at hh <;> omega

/-- The second scratch at a later point of a batch. -/
theorem inv1_acc (t : Fin cfg0.N) (h1 : ¬t.val % 32 = 0) (ih : Inv1 m c (t.val - 1) (pred_lt t))
    (hhit : ∀ q : Fin 1024, (outsAt0 (F := Ideal) m c t.val t.isLt).2.2.2 (ix1 (colOf t q))
      = min ((outsAt0 (F := Ideal) m c (t.val - 1) (pred_lt t)).2.2.2 (ix1 (colOf t q))) (tileColMin m c t q))
    (hmiss : ∀ q : Fin 8192, (q.val < t.val % 8 * 1024 ∨ t.val % 8 * 1024 + 1024 ≤ q.val) →
      (outsAt0 (F := Ideal) m c t.val t.isLt).2.2.2 (ix1 q) = (outsAt0 (F := Ideal) m c (t.val - 1) (pred_lt t)).2.2.2 (ix1 q)) :
    Inv1 m c t.val t.isLt := fun q => by
  have hN : t.val < 128 := lt_of_lt_of_eq t.isLt N_0
  rcases col_cases t q with ⟨q', rfl⟩ | hq
  · rw [hhit q']
    have hc : (colOf t q').val = t.val % 8 * 1024 + q'.val := rfl
    have hq' := q'.isLt
    have hp := ih (colOf t q')
    rw [batchOf_pred t h1] at hp
    exact (hp.min (tileColMin_isMinOf m c t q')).congr fun k => by
      have hk8 := k.isLt
      constructor <;> intro hh <;> (try split_ifs at hh ⊢) <;> omega
  · rw [hmiss q hq]
    have hp := ih q
    rw [batchOf_pred t h1] at hp
    have hq8 := q.isLt
    exact hp.congr fun k => by
      have hk8 := k.isLt
      constructor <;> intro hh <;> (try split_ifs at hh ⊢) <;> omega

/-- One step of the induction: the five cases of the body. -/
theorem inv_step (t : Fin cfg0.N)
    (ih : t.val ≠ 0 → Inv0 m c (t.val - 1) (pred_lt t) ∧ Inv1 m c (t.val - 1) (pred_lt t)) :
    Inv0 m c t.val t.isLt ∧ Inv1 m c t.val t.isLt := by
  have hN : t.val < 128 := lt_of_lt_of_eq t.isLt N_0
  by_cases h0 : t.val % 8 = 0
  · by_cases h1 : t.val % 32 = 0
    · have h2 : ¬t.val % 8 = 7 := by omega
      have h3 : ¬t.val % 32 = 31 := by omega
      exact ⟨inv0_init m c t h0 (step0_A m c t h0 h1 h2 h3),
        inv1_init m c t h1 (step1_hit_A m c t h0 h1 h2 h3) (step1_miss_A m c t h0 h1 h2 h3)⟩
    · have h2 : ¬t.val % 8 = 7 := by omega
      have h3 : ¬t.val % 32 = 31 := by omega
      have hi := ih (by omega)
      exact ⟨inv0_init m c t h0 (step0_D m c t h0 h1 h2 h3),
        inv1_acc m c t h1 hi.2 (step1_hit_D m c t h0 h1 h2 h3) (step1_miss_D m c t h0 h1 h2 h3)⟩
  · have h1 : ¬t.val % 32 = 0 := by omega
    have hi := ih (by omega)
    by_cases h2 : t.val % 8 = 7
    · by_cases h3 : t.val % 32 = 31
      · exact ⟨inv0_acc m c t h0 hi.1 (step0_E m c t h0 h1 h2 h3),
          inv1_acc m c t h1 hi.2 (step1_hit_E m c t h0 h1 h2 h3) (step1_miss_E m c t h0 h1 h2 h3)⟩
      · exact ⟨inv0_acc m c t h0 hi.1 (step0_C m c t h0 h1 h2 h3),
          inv1_acc m c t h1 hi.2 (step1_hit_C m c t h0 h1 h2 h3) (step1_miss_C m c t h0 h1 h2 h3)⟩
    · have h3 : ¬t.val % 32 = 31 := by omega
      exact ⟨inv0_acc m c t h0 hi.1 (step0_B m c t h0 h1 h2 h3),
        inv1_acc m c t h1 hi.2 (step1_hit_B m c t h0 h1 h2 h3) (step1_miss_B m c t h0 h1 h2 h3)⟩

/-- Both scratches hold their running minima after every grid point. -/
theorem inv : ∀ (n : ℕ) (h : n < cfg0.N), Inv0 m c n h ∧ Inv1 m c n h := by
  intro n
  induction n with
  | zero => intro h; exact inv_step m c ⟨0, h⟩ fun hne => absurd rfl hne
  | succ k ih => intro h; exact inv_step m c ⟨k + 1, h⟩ fun _ => ih (Nat.lt_of_succ_lt h)

/-- At the last column tile of a row tile, the first output's block holds, at row `r`, the minimum over ALL columns of
    the squared distance from row `r` of the tile. -/
theorem out2_at (t : Fin cfg0.N) (h : t.val % 8 = 7) (y : S1x1x2048.Idx) :
    (outsAt0 (F := Ideal) m c t.val t.isLt).1 y
      = minOver Finset.univ (fun q : Fin 8192 =>
          d2K (X m c) (Y m c) (batchOf t) (rowOf t ⟨(y 2).val, (y 2).isLt⟩) q) := by
  have h0 : ¬t.val % 8 = 0 := by omega
  have h1 : ¬t.val % 32 = 0 := by omega
  have hr := (inv m c t.val t.isLt).1 ⟨(y 2).val, (y 2).isLt⟩
  have e : (outsAt0 (F := Ideal) m c t.val t.isLt).1 y
      = (outsAt0 (F := Ideal) m c t.val t.isLt).2.2.1 (ix1 ⟨(y 2).val, (y 2).isLt⟩) := by
    by_cases h3 : t.val % 32 = 31
    · exact out2_E m c t h0 h1 h h3 y
    · exact out2_C m c t h0 h1 h h3 y
  rw [e]
  exact hr.eq_minOver_univ fun q => by have := q.isLt; omega

/-- At the last point of a batch, the second output's block holds, at column `q`, the minimum over ALL rows of the
    squared distance to column `q`. -/
theorem out3_at (t : Fin cfg0.N) (h : t.val % 32 = 31) (y : S1x1x8192.Idx) :
    (outsAt0 (F := Ideal) m c t.val t.isLt).2.1 y
      = minOver Finset.univ (fun n : Fin 8192 =>
          d2K (X m c) (Y m c) (batchOf t) n ⟨(y 2).val, (y 2).isLt⟩) := by
  have h0 : ¬t.val % 8 = 0 := by omega
  have h1 : ¬t.val % 32 = 0 := by omega
  have h2 : t.val % 8 = 7 := by omega
  have hq := (inv m c t.val t.isLt).2 ⟨(y 2).val, (y 2).isLt⟩
  rw [out3_E m c t h0 h1 h2 h y]
  have hy : (y 2).val < 8192 := (y 2).isLt
  have hN : t.val < 128 := lt_of_lt_of_eq t.isLt N_0
  exact hq.eq_minOver_univ fun k => by
    have hk8 := k.isLt
    split_ifs <;> omega

end Cert.KernelIdeal.Acc

end
-- ==== Proof.KernelValue.lean ====
/-
  The idealized kernel program's run, read: the two output arrays of the region as whole-array functions of the two
  point sets (the minimum over the other set of the squared distance), then the lines after the region (clamp at zero,
  square root, the sum along each batch, the sum of the two sums), which make the second arrangement of the
  specification.
-/
import proofs.«131806_j70927089926224_2_alg».proof.Proof.KernelAccum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Acc
open Cert.KernelIdeal Cert.KernelIdeal.Gen Cert.Chamfer Idealize.ShloMosaic Idealize.ShloMosaic.TcCoe Idealize.SL.Sem
open Idealize.ShloMosaic.Pipeline (Dat)

variable (m : (ℓ : Loc nD τ sig) → Buf (Elt Ideal) ℓ)

/-! ## The two output arrays as whole-array functions -/

/-- The block index maps of the two output windows, decided over the grid: the first output's block at point
    `t = 32·b + 8·i + j` is `(b, 0, i)`, the second's is `(b, 0, 0)`. -/
theorem idx_facts : ∀ t : Fin cfg0.N,
    win0_2.index t (0 : Fin 3) = t.val / 32 ∧ win0_2.index t (1 : Fin 3) = 0 ∧ win0_2.index t (2 : Fin 3) = t.val / 8 % 4
    ∧ win0_3.index t (0 : Fin 3) = t.val / 32 ∧ win0_3.index t (1 : Fin 3) = 0 ∧ win0_3.index t (2 : Fin 3) = 0 :=
  (by decide +kernel : ∀ t : Fin grid0.N, _)

/-- For row `i 2` of the first point set in batch `i 0`: the minimum over the second set of the squared distance. -/
def rowMin (c : Dev nD) : S4x1x8192.Idx → EReal := fun i =>
  minOver Finset.univ (fun q : Fin 8192 => d2K (X m c) (Y m c) ⟨(i 0).val, (i 0).isLt⟩ ⟨(i 2).val, (i 2).isLt⟩ q)

/-- For column `i 2` of the second point set in batch `i 0`: the minimum over the first set of the squared distance. -/
def colMin (c : Dev nD) : S4x1x8192.Idx → EReal := fun i =>
  minOver Finset.univ (fun n : Fin 8192 => d2K (X m c) (Y m c) ⟨(i 0).val, (i 0).isLt⟩ n ⟨(i 2).val, (i 2).isLt⟩)

/-- What a point that writes the first output back writes is its block of `rowMin`. -/
theorem flushed2_eq (c : Dev nD) (t : Fin cfg0.N) (hf : (cfg0.win 2).flush t = true) :
    (dats m 0 c).flushed 2 t = ((cfg0.win 2).blk t).view.read (Elt Ideal) (rowMin m c) := by
  show (cfg0.win 2).cut (grid0.coords t) ((dats m 0 c).after 2 t) = _
  rw [after0_2]
  funext y
  refine (out2_at m c t ((flush0_2 t).mp hf) y).trans ?_
  show _ = rowMin m c (((cfg0.win 2).blk t).view.emb y)
  obtain ⟨e0, e1, e2, -, -, -⟩ := idx_facts t
  have hy0 : (y 0).val < 1 := (y 0).isLt
  have hy2 : (y 2).val < 2048 := (y 2).isLt
  have b0 : batchOf t = ⟨((((cfg0.win 2).blk t).view.emb y) 0).val, ((((cfg0.win 2).blk t).view.emb y) 0).isLt⟩ := by
    apply Fin.ext
    show t.val / 32 = win0_2.index t (0 : Fin 3) * 1 + 1 * (y 0).val
    omega
  have b2 : rowOf t ⟨(y 2).val, (y 2).isLt⟩ = ⟨((((cfg0.win 2).blk t).view.emb y) 2).val, ((((cfg0.win 2).blk t).view.emb y) 2).isLt⟩ := by
    apply Fin.ext
    show (t.val / 8 % 4) * 2048 + (y 2).val = win0_2.index t (2 : Fin 3) * 2048 + 1 * (y 2).val
    omega
  unfold rowMin
  rw [b0, b2]

/-- What a point that writes the second output back writes is its block of `colMin`. -/
theorem flushed3_eq (c : Dev nD) (t : Fin cfg0.N) (hf : (cfg0.win 3).flush t = true) :
    (dats m 0 c).flushed 3 t = ((cfg0.win 3).blk t).view.read (Elt Ideal) (colMin m c) := by
  show (cfg0.win 3).cut (grid0.coords t) ((dats m 0 c).after 3 t) = _
  rw [after0_3]
  funext y
  refine (out3_at m c t ((flush0_3 t).mp hf) y).trans ?_
  show _ = colMin m c (((cfg0.win 3).blk t).view.emb y)
  obtain ⟨-, -, -, e0, e1, e2⟩ := idx_facts t
  have hy0 : (y 0).val < 1 := (y 0).isLt
  have hy2 : (y 2).val < 8192 := (y 2).isLt
  have b0 : batchOf t = ⟨((((cfg0.win 3).blk t).view.emb y) 0).val, ((((cfg0.win 3).blk t).view.emb y) 0).isLt⟩ := by
    apply Fin.ext
    show t.val / 32 = win0_3.index t (0 : Fin 3) * 1 + 1 * (y 0).val
    omega
  have b2 : (⟨(y 2).val, (y 2).isLt⟩ : Fin 8192) = ⟨((((cfg0.win 3).blk t).view.emb y) 2).val, ((((cfg0.win 3).blk t).view.emb y) 2).isLt⟩ := by
    apply Fin.ext
    show (y 2).val = win0_3.index t (2 : Fin 3) * 8192 + 1 * (y 2).val
    omega
  unfold colMin
  rw [b0, b2]

/-- An index of the first output is in point `t`'s block iff each coordinate is in the block's range on its axis. -/
theorem mem_blk2 (t : Fin cfg0.N) (i : S4x1x8192.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v1_0).slice (win0_2.rect t)).set ↔ _
  rw [View.set_slice_whole, Rect.mem_set_unit]
  exact Iff.rfl

/-- The same for the second output. -/
theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v1_1).slice (win0_3.rect t)).set ↔ _
  rw [View.set_slice_whole, Rect.mem_set_unit]
  exact Iff.rfl

/-- Row `r` of batch `b` is written back at the last column tile of its row tile, the point `32·b + 8·(r / 2048) + 7`. -/
theorem cover2 (i : S4x1x8192.Idx) : ∃ t : Fin cfg0.N, (cfg0.win 2).flush t = true ∧ i ∈ ((cfg0.win 2).blk t).view.set := by
  have hN : cfg0.N = 128 := N_0
  have h0 : (i 0).val < 4 := (i 0).isLt
  have h1 : (i 1).val < 1 := (i 1).isLt
  have h2 : (i 2).val < 8192 := (i 2).isLt
  refine ⟨⟨32 * (i 0).val + 8 * ((i 2).val / 2048) + 7, by omega⟩, (flush0_2 _).mpr (by dsimp only; omega), ?_⟩
  rw [mem_blk2]
  obtain ⟨e0, e1, e2, -, -, -⟩ := idx_facts ⟨32 * (i 0).val + 8 * ((i 2).val / 2048) + 7, by omega⟩
  dsimp only at e0 e1 e2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 2048 ≤ (i 2).val ∧ (i 2).val < win0_2.index _ (2 : Fin 3) * 2048 + 2048; omega

/-- Column `q` of batch `b` is written back at the batch's last point, `32·b + 31`. -/
theorem cover3 (i : S4x1x8192.Idx) : ∃ t : Fin cfg0.N, (cfg0.win 3).flush t = true ∧ i ∈ ((cfg0.win 3).blk t).view.set := by
  have hN : cfg0.N = 128 := N_0
  have h0 : (i 0).val < 4 := (i 0).isLt
  have h1 : (i 1).val < 1 := (i 1).isLt
  have h2 : (i 2).val < 8192 := (i 2).isLt
  refine ⟨⟨32 * (i 0).val + 31, by omega⟩, (flush0_3 _).mpr (by dsimp only; omega), ?_⟩
  rw [mem_blk3]
  obtain ⟨-, -, -, e0, e1, e2⟩ := idx_facts ⟨32 * (i 0).val + 31, by omega⟩
  dsimp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 8192 ≤ (i 2).val ∧ (i 2).val < win0_3.index _ (2 : Fin 3) * 8192 + 8192; omega

/-- The first output array after the last point. -/
theorem final2 (c : Dev nD) : (dats m 0 c).arrAt 2 cfg0.N = rowMin m c :=
  (dats m 0 c).arrAt_eq_of_cover 2 (rowMin m c) (flushed2_eq m c) cover2

/-- The second output array after the last point. -/
theorem final3 (c : Dev nD) : (dats m 0 c).arrAt 3 cfg0.N = colMin m c :=
  (dats m 0 c).arrAt_eq_of_cover 3 (colMin m c) (flushed3_eq m c) cover3

/-! ## The lines after the region -/

/-- An output array read as [4, 8192], clamped below at zero, the square root taken: at `(b, k)` it is the clamped
    root of the array at `(b, 0, k)`. -/
theorem clamp_at (A : (⟨S4x1x8192, .f32⟩ : BufTy).Contents (Elt Ideal)) (b : Fin 4) (k : Fin 8192) :
    Host.sqrt (maximumf (shapeCast S4x8192 A shapeCasts_S4x1x8192_S4x8192)
      (broadcastInDim S4x8192 ![] bcast_S_S4x8192 (constant (F := Ideal) S_ .f32 0x00000000#32))) (ValueIdx.ix2 b k)
    = clampRoot (A (ValueIdx.ix3 b (0 : Fin 1) k)) := by
  show Ideal.sqrt (max (shapeCast S4x8192 A shapeCasts_S4x1x8192_S4x8192 (ValueIdx.ix2 b k))
      (broadcastInDim S4x8192 ![] bcast_S_S4x8192 (constant (F := Ideal) S_ .f32 0x00000000#32) (ValueIdx.ix2 b k))) = _
  rw [shapeCast_apply A shapeCasts_S4x1x8192_S4x8192 (ValueIdx.ix2 b k) (ValueIdx.ix3 b (0 : Fin 1) k) (by
        rw [Shape.rowMajor_val_three, Shape.rowMajor_val_two]
        show (b.val * 1 + 0) * 8192 + k.val = b.val * 8192 + k.val
        omega),
      broadcastInDim_apply _ bcast_S_S4x8192 _ (ValueIdx.ix2 b k) ValueIdx.ix0 (fun a => a.elim0)]
  show Ideal.sqrt (max _ (Ideal.ofBits .f32 0x00000000#32)) = _
  rw [Ideal.ofBits_zero_f32]
  rfl

/-- The sum of a [4, 8192] array along each batch, from the constant 0: at batch `b` it is 0 plus the sum over `k` of
    the array at `(b, k)`. -/
theorem sum_at (y0 : (⟨S4x8192, .f32⟩ : BufTy).Contents (Elt Ideal)) (i : S4.Idx) :
    Host.reduceAdd y0 (constant (F := Ideal) S_ .f32 0x00000000#32) reducesTo_S4x8192_S4_d1 h_S_ i
      = 0 + ∑ k : Fin 8192, y0 (ValueIdx.ix2 (⟨(i 0).val, (i 0).isLt⟩ : Fin 4) k) := by
  simp only [Host.reduceAdd, Ideal.hostReduceAdd_def]
  rw [Ideal.hostReduceAdd_single reducesTo_S4x8192_S4_d1 (by decide)]
  refine congrArg₂ (· + ·) ?_ (Finset.sum_congr rfl fun k _ => ?_)
  · exact Ideal.ofBits_zero_f32
  · exact congrArg y0 (funext fun a => Fin.ext (by match a with | ⟨0, _⟩ => rfl | ⟨1, _⟩ => rfl))

/-- One output array through the lines after the region: read as [4, 8192], clamped below at zero, the square root,
    then the sum along each batch from 0. -/
def rootSum (A : (⟨S4x1x8192, .f32⟩ : BufTy).Contents (Elt Ideal)) : (⟨S4, .f32⟩ : BufTy).Contents (Elt Ideal) :=
  Host.reduceAdd (Host.sqrt (maximumf (shapeCast S4x8192 A shapeCasts_S4x1x8192_S4x8192)
      (broadcastInDim S4x8192 ![] bcast_S_S4x8192 (constant (F := Ideal) S_ .f32 0x00000000#32))))
    (constant (F := Ideal) S_ .f32 0x00000000#32) reducesTo_S4x8192_S4_d1 h_S_

/-- At batch `b` it is 0 plus the sum over `k` of the clamped root of the array at `(b, 0, k)`. -/
theorem rootSum_apply (A : (⟨S4x1x8192, .f32⟩ : BufTy).Contents (Elt Ideal)) (i : S4.Idx) :
    rootSum A i = 0 + ∑ k : Fin 8192, clampRoot (A (ValueIdx.ix3 (⟨(i 0).val, (i 0).isLt⟩ : Fin 4) (0 : Fin 1) k)) := by
  unfold rootSum
  rw [sum_at]
  exact congrArg (0 + ·) (Finset.sum_congr rfl fun k _ => clamp_at A _ k)

/-- The result of the lines after the region on core `c`: the second output's root sum plus the first's, which is the
    second arrangement of the specification. -/
theorem tail_val (c : Dev nD) :
    Pipeline.afterTail₀ cfgs (dats m) 0 (V0 m) [hostOps1] c main_v12 = GK (X m c) (Y m c) := by
  unfold Pipeline.afterTail₀
  show StableHlo.after hostOps1 _ (Proc.devRef .tc main_v12) = _
  after_results
  have e2 : Pipeline.withArrays (cfgs 0).spec c (V0 m c) (fun w => (dats m 0 c).arrAt w (cfgs 0).N) (Proc.tc.devRef main_v1_0)
      = rowMin m c := (Pipeline.withArrays_arr spec0 launch0.win.arr_inj c _ _ 2).trans (final2 m c)
  have e3 : Pipeline.withArrays (cfgs 0).spec c (V0 m c) (fun w => (dats m 0 c).arrAt w (cfgs 0).N) (Proc.tc.devRef main_v1_1)
      = colMin m c := (Pipeline.withArrays_arr spec0 launch0.win.arr_inj c _ _ 3).trans (final3 m c)
  rw [e2, e3]
  funext i
  show (rootSum (colMin m c) i : EReal) + (rootSum (rowMin m c) i : EReal) = _
  rw [rootSum_apply, rootSum_apply]
  rfl

/-! ## The run -/

/-- The idealized kernel program runs, ends with its result at the second arrangement of the specification, and leaves its arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = GK (X m c) (Y m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v12 (Pipeline.mem_restRefs_of main_v12 (by decide) (by decide))).trans (tail_val m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Acc

end
-- ==== Proof.lean ====
/-
  The certificate. Per batch there are two sets of 8192 points of ℝ³. The reference takes the Euclidean distance of
  every pair, sqrt(max(|x|² + |y|² − 2⟨x, y⟩, 0)), and adds the sum over the second set of the distance to the nearest
  point of the first to the sum over the first set of the distance to the nearest point of the second. The kernel
  sweeps the 8192 × 8192 pairs in tiles of 2048 × 1024, keeps running minima of the SQUARED distance along rows and
  along columns, and takes one clamped square root of each minimum at the end. The two agree because (i) with finite
  coordinates |x|² + |y|² + Σ_d (−2·x_d)·y_d = |x|² + |y|² − 2·Σ_d x_d·y_d over the reals, and (ii) x ↦ sqrt(max(x, 0))
  is monotone on the extended reals and fixes +∞, so it commutes with a finite minimum.
  The frames are the generated ones; the reference's frame is its run with the result dropped. The idealization
  rewrote nothing, so `preserves` is `True`.
-/
import proofs.«131806_j70927089926224_2_alg».proof.Defs
import proofs.«131806_j70927089926224_2_alg».proof.Proof.Gen.Kernel
import proofs.«131806_j70927089926224_2_alg».proof.Proof.Gen.Kernel.Skeleton
import proofs.«131806_j70927089926224_2_alg».proof.Proof.Gen.Kernel.Launch
import proofs.«131806_j70927089926224_2_alg».proof.Proof.Gen.Kernel.Points
import proofs.«131806_j70927089926224_2_alg».proof.Proof.Gen.Kernel.Frame
import proofs.«131806_j70927089926224_2_alg».proof.Proof.Gen.KernelIdeal
import proofs.«131806_j70927089926224_2_alg».proof.Proof.Gen.KernelIdeal.Skeleton
import proofs.«131806_j70927089926224_2_alg».proof.Proof.Gen.KernelIdeal.Launch
import proofs.«131806_j70927089926224_2_alg».proof.Proof.Gen.KernelIdeal.Points
import proofs.«131806_j70927089926224_2_alg».proof.Proof.Gen.KernelIdeal.Frame
import proofs.«131806_j70927089926224_2_alg».proof.Proof.Gen.ReferenceIdeal
import proofs.«131806_j70927089926224_2_alg».proof.Proof.Gen.Pre_finite_inputs
import proofs.«131806_j70927089926224_2_alg».proof.Proof.Gen.ReferenceIdeal.Run
import proofs.«131806_j70927089926224_2_alg».proof.Proof.Gen.ReferenceIdeal.Read
import proofs.«131806_j70927089926224_2_alg».proof.Proof.RefValue
import proofs.«131806_j70927089926224_2_alg».proof.Proof.Algebra
import proofs.«131806_j70927089926224_2_alg».proof.Proof.Finite
import proofs.«131806_j70927089926224_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and are finite, the kernel ends at the minima-then-root arrangement and the reference at
    the root-then-minima arrangement of one and the same number per batch. -/
theorem algebraic : Cert.algebraic_KernelIdeal_ReferenceIdeal := by
  intro m ρ m' ρ' hpre hagree
  refine ⟨_, Cert.KernelIdeal.Acc.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Chamfer.Ref.ref_value, (hagree c).1, (hagree c).2]
  obtain ⟨hX, hY⟩ := Cert.Chamfer.finite_of_pre m hpre c
  exact (Cert.Chamfer.GK_eq_Gref _ _ hX hY).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
